-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1700000 : Shape := ⟨1, ![1700000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S1700000 32) (main_arg2 : IVec S1700000 32) (main_arg3 : FVec F S128x64 .f32) (main_arg4 : FVec F S64 .f32) (main_arg5 : FVec F S64x16 .f32) (main_arg6 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg5
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg6 main_v13 main_v16
-- ==== Kernel.lean ====
abbrev S100000x128 : Shape := ⟨2, ![100000, 128]⟩
abbrev S1700000 : Shape := ⟨1, ![1700000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩
abbrev S100000 : Shape := ⟨1, ![100000]⟩
abbrev S1700000x1 : Shape := ⟨2, ![1700000, 1]⟩
abbrev S100000x1 : Shape := ⟨2, ![100000, 1]⟩
abbrev S1x64 : Shape := ⟨2, ![1, 64]⟩
abbrev S1x16 : Shape := ⟨2, ![1, 16]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1700000x64 : Shape := ⟨2, ![1700000, 64]⟩
abbrev S100000x16 : Shape := ⟨2, ![100000, 16]⟩
abbrev S5000x16 : Shape := ⟨2, ![5000, 16]⟩
abbrev S1700000x16 : Shape := ⟨2, ![1700000, 16]⟩

abbrev nBuf : Space → Nat
  | .hbm => 56
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S1700000, .i32⟩
  | .hbm, ⟨2, _⟩ => ⟨S1700000, .i32⟩
  | .hbm, ⟨3, _⟩ => ⟨S128x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .f32⟩
  | .hbm, ⟨8, _⟩ => ⟨S1700000, .f32⟩
  | .hbm, ⟨9, _⟩ => ⟨S_, .f32⟩
  | .hbm, ⟨10, _⟩ => ⟨S100000, .f32⟩
  | .hbm, ⟨11, _⟩ => ⟨S1700000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S1x64, .f32⟩
  | .hbm, ⟨26, _⟩ => ⟨S1x16, .f32⟩
  | .hbm, ⟨27, _⟩ => ⟨S100000x64, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000x64, .f32⟩
  | .hbm, ⟨37, _⟩ => ⟨S_, .f32⟩
  | .hbm, ⟨38, _⟩ => ⟨S100000x64, .f32⟩
  | .hbm, ⟨39, _⟩ => ⟨S1700000x1, .i32⟩
  | .hbm, ⟨40, _⟩ => ⟨S100000x64, .f32⟩
  | .hbm, ⟨41, _⟩ => ⟨S100000x16, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x16, .f32⟩
  | .hbm, ⟨51, _⟩ => ⟨S_, .f32⟩
  | .hbm, ⟨52, _⟩ => ⟨S100000x16, .f32⟩
  | .hbm, ⟨53, _⟩ => ⟨S1700000x1, .i32⟩
  | .hbm, ⟨54, _⟩ => ⟨S100000x16, .f32⟩
  | .hbm, ⟨55, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x1, .f32⟩
  | .local _ .vmem, ⟨18, _⟩ => ⟨S5000x1, .f32⟩
  | .local _ .vmem, ⟨19, _⟩ => ⟨S1x16, .f32⟩
  | .local _ .vmem, ⟨20, _⟩ => ⟨S5000x16, .f32⟩
  | .local _ .vmem, ⟨21, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_c_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  shapeCasts_S64_S1x64 : S64.ShapeCasts S1x64
  shapeCasts_S16_S1x16 : S16.ShapeCasts S1x16
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  scatter_S100000_S1700000x1_S1700000_n_0_0_1_wf : ScatterDims.WF S100000 S1700000x1 S1700000 [] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x16_S5000x16_1_0_0_1_n_n_wf : DotDims.WF S5000x64 S64x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S100000x16.size a
  hwx1_4 : ∀ i : grid1.Coords, EltTy.bits .f32 = 32 ∨ (Rect.block (s := S100000x16) S5000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x16.size a ≤ S100000x16.size a
  hwx2_3 : ∀ i : grid2.Coords, EltTy.bits .f32 = 32 ∨ (Rect.block (s := S100000x16) S5000x16.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S5000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v34) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S5000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S1700000 : Shape := ⟨1, ![1700000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩
abbrev S100000 : Shape := ⟨1, ![100000]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1700000, .i32⟩
  | .hbm, ⟨2, _⟩ => ⟨S1700000, .i32⟩
  | .hbm, ⟨3, _⟩ => ⟨S128x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .f32⟩
  | .hbm, ⟨8, _⟩ => ⟨S1700000, .f32⟩
  | .hbm, ⟨9, _⟩ => ⟨S_, .f32⟩
  | .hbm, ⟨10, _⟩ => ⟨S100000, .f32⟩
  | .hbm, ⟨11, _⟩ => ⟨S1700000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S100000x64, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x64, .f32⟩
  | .hbm, ⟨53, _⟩ => ⟨S1700000x1, .f32⟩
  | .hbm, ⟨54, _⟩ => ⟨S1700000x64, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S100000x16, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x16, .f32⟩
  | .hbm, ⟨76, _⟩ => ⟨S1700000x1, .f32⟩
  | .hbm, ⟨77, _⟩ => ⟨S1700000x16, .f32⟩
  | .hbm, ⟨78, _⟩ => ⟨S1700000x16, .f32⟩
  | .hbm, ⟨79, _⟩ => ⟨S_, .f32⟩
  | .hbm, ⟨80, _⟩ => ⟨S100000x16, .f32⟩
  | .hbm, ⟨81, _⟩ => ⟨S1700000x1, .i32⟩
  | .hbm, ⟨82, _⟩ => ⟨S100000x16, .f32⟩
  | .hbm, ⟨83, _⟩ => ⟨S1x16, .f32⟩
  | .hbm, ⟨84, _⟩ => ⟨S100000x16, .f32⟩
  | .hbm, ⟨85, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_c_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_7 : Ref sig .tc := ⟨.hbm, 44, rfl⟩
abbrev main_v26 : Ref sig .tc := ⟨.hbm, 45, rfl⟩
abbrev main_v27 : Ref sig .tc := ⟨.hbm, 46, rfl⟩
abbrev main_c_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call1_cst : Ref sig .tc := ⟨.hbm, 63, rfl⟩
abbrev main_call1_v0 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_v45 : Ref sig .tc := ⟨.hbm, 69, rfl⟩
abbrev main_c_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«127769_j32942399160959_2_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRows.lean ====
/-
  General lemmas about whole rows of rank-two arrays: a gather of rows of a table at a column of start indices, read
  at an entry; two arrays of equal height laid side by side, read left and right of the seam; two vectors laid end to
  end; a one-column array cast to a vector; a unit-stride cut of a vector. None mentions a program.
-/
import Idealize.ShloMosaic.Lib.ValueIdx
import Idealize.ShloMosaic.Lib.ValueLayout
import Idealize.ShloMosaic.Lib.Pipeline.Value

noncomputable section

namespace Cert.RowsLib

open Idealize.ShloMosaic Idealize.ShloMosaic.ValueIdx

variable {α : Type}

/-! ## A gather of whole rows -/

/-- The dimension numbers of a gather of whole rows: a table of N rows of C entries, a column of R start indices, a
    result of R rows; the row axis is collapsed and named by the start index, the column axis is the offset axis. -/
abbrev rowGatherDims (N C R : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: the word read as a signed integer, clamped into the table. -/
def rowOf (N : ℕ) (hN : 0 < N) {w : ℕ} (b : BitVec w) : Fin N := ⟨min b.toInt.toNat (N - 1), by omega⟩

/-- THE ROW GATHER READ AT (r, c): the table at the row that start index r names, column c. -/
theorem gather_rows_apply {N C R w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGatherDims N C R wf) x idx (ix2 r c) = x (ix2 (rowOf N hN (idx (ix2 r (0 : Fin 1)))) c) := by
  unfold Host.gather
  congr 1
  funext a
  refine Fin.ext ?_
  match a with
  | ⟨0, _⟩ =>
    show (rowGatherDims N C R wf).start (ix2 r c) idx 0 + (rowGatherDims N C R wf).batchCoord (ix2 r c) 0
      + (rowGatherDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 r c) ⟨List.idxOf (0 : Fin 2) (rowGatherDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N C R wf).start (ix2 r c) idx 1 + (rowGatherDims N C R wf).batchCoord (ix2 r c) 1
      + (rowGatherDims N C R wf).offCoord (ix2 r c) 1 = c.val
    rw [GatherDims.batchCoord_eq_zero _ _ _ List.not_mem_nil]
    unfold GatherDims.start
    rw [dif_neg (show (1 : Fin 2) ∉ (rowGatherDims N C R wf).startIndexMap from (by decide : (1 : Fin 2) ∉ ([0] : List (Fin 2))))]
    unfold GatherDims.offCoord
    rw [dif_pos (show (1 : Fin 2) ∈ (rowGatherDims N C R wf).sKept from
      (GatherDims.mem_sKept _ _).mpr ⟨(by decide : (1 : Fin 2) ∉ ([0] : List (Fin 2))), List.not_mem_nil⟩)]
    simp only [Nat.zero_add]
    rfl

/-! ## Side by side, end to end -/

/-- Two arrays of M rows laid side by side: left of the seam the result reads the first. -/
theorem concat_cols_left {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin A) (k' : Fin T) (hk : k'.val = k.val) :
    concatenate ⟨2, ![M, T]⟩ (1 : Fin 2) [⟨⟨2, ![M, A]⟩, x₁⟩, ⟨⟨2, ![M, B]⟩, x₂⟩] h (ix2 p k') = x₁ (ix2 p k) :=
  concatenate_pair_apply_left (1 : Fin 2) x₁ x₂ h (ix2 p k') rfl (ix2 p k) (fun b => by
    match b with
    | ⟨0, _⟩ => rfl
    | ⟨1, _⟩ => exact hk.symm)

/-- Right of the seam it reads the second, the first one's width less. -/
theorem concat_cols_right {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin B) (k' : Fin T) (hk : k'.val = A + k.val) :
    concatenate ⟨2, ![M, T]⟩ (1 : Fin 2) [⟨⟨2, ![M, A]⟩, x₁⟩, ⟨⟨2, ![M, B]⟩, x₂⟩] h (ix2 p k') = x₂ (ix2 p k) :=
  concatenate_pair_apply_right (1 : Fin 2) x₁ x₂ h (ix2 p k') rfl rfl (ix2 p k) (fun b hb => by
    match b with
    | ⟨0, _⟩ => rfl
    | ⟨1, _⟩ => exact absurd rfl hb) (by
    show k.val + A = k'.val
    omega)

/-- Two vectors laid end to end: before the seam the result reads the first. -/
theorem concat_vec_left {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin A) (k' : Fin T) (hk : k'.val = k.val) :
    concatenate ⟨1, ![T]⟩ (0 : Fin 1) [⟨⟨1, ![A]⟩, x₁⟩, ⟨⟨1, ![B]⟩, x₂⟩] h (ix1 k') = x₁ (ix1 k) :=
  concatenate_pair_apply_left (0 : Fin 1) x₁ x₂ h (ix1 k') rfl (ix1 k) (fun b => by
    match b with
    | ⟨0, _⟩ => exact hk.symm)

/-- After the seam it reads the second, the first one's length less. -/
theorem concat_vec_right {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin B) (k' : Fin T) (hk : k'.val = A + k.val) :
    concatenate ⟨1, ![T]⟩ (0 : Fin 1) [⟨⟨1, ![A]⟩, x₁⟩, ⟨⟨1, ![B]⟩, x₂⟩] h (ix1 k') = x₂ (ix1 k) :=
  concatenate_pair_apply_right (0 : Fin 1) x₁ x₂ h (ix1 k') rfl rfl (ix1 k) (fun b hb => by
    match b with
    | ⟨0, _⟩ => exact absurd rfl hb) (by
    show k.val + A = k'.val
    omega)

/-! ## Small casts and cuts -/

/-- A one-column array cast to a vector reads, at p, the column at p. -/
theorem shapeCast_colvec_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A vector cut from o reads, at j, the source at o + j. -/
theorem slice_vec_apply {n m : ℕ} (o : ℕ) (x : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] x h (ix1 j) = x (ix1 k) :=
  extractStridedSlice_apply _ _ _ _ _ (fun ax => by
    match ax with
    | ⟨0, _⟩ => exact hk)

end Cert.RowsLib

end
-- ==== Proof.LibScatter.lean ====
/-
  General lemmas about the accumulating scatter of whole rows, read at an entry: a table of rows to which update rows
  are added at the rows a column of start indices names, and the same for a vector to which update entries are added.
  The result at an entry is the table's entry plus the sum of the updates whose start index, read as a signed integer,
  names that row; an update whose start index names no row of the table contributes nothing. None mentions a program.
-/
import Idealize.ShloMosaic.Lib.ValueIdx
import Idealize.ShloMosaic.Lib.ValueLayout
import Idealize.ShloMosaic.Lib.Pipeline.Value
import Idealize.ShloMosaic.PureOps.Ideal.Laws

noncomputable section

namespace Cert.ScatterLib

open Idealize.ShloMosaic Idealize.ShloMosaic.ValueIdx

/-! ## Update rows added into a table -/

/-- The dimension numbers of a scatter of whole rows: a table of N rows of C entries, a column of R start indices,
    R update rows of C entries; the row axis of the table is named by the start index, the column axis is the
    window axis. -/
abbrev rowScatterDims (N C R : ℕ)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Rows

variable {N C R : ℕ} (wf : ScatterDims.WF ⟨2, ![N, C]⟩ ⟨2, ![R, 1]⟩ ⟨2, ![R, C]⟩ [1] [0] [0] 1)

/-- On the row axis the window coordinate of an update entry is zero: the row comes from the start index alone. -/
theorem rows_window_zero (r : Fin R) (k' : Fin C) :
    (rowScatterDims N C R wf).window (ix2 r k') (0 : Fin 2) = 0 := by
  unfold ScatterDims.window
  rw [dif_neg (show (0 : Fin 2) ∉ (rowScatterDims N C R wf).sKept from
    (by decide : (0 : Fin 2) ∉ ([1] : List (Fin 2))))]

/-- On the column axis the window coordinate of update entry (r, k') is k'. -/
theorem rows_window_one (r : Fin R) (k' : Fin C) :
    (rowScatterDims N C R wf).window (ix2 r k') (1 : Fin 2) = k'.val := by
  unfold ScatterDims.window
  rw [dif_pos (show (1 : Fin 2) ∈ (rowScatterDims N C R wf).sKept from
    (by decide : (1 : Fin 2) ∈ ([1] : List (Fin 2))))]
  rfl

variable {w : ℕ} (idx : IVec ⟨2, ![R, 1]⟩ w)

/-- On the row axis the window of update entry (r, k') starts at start index r, read as a signed integer. -/
theorem rows_start_zero (r : Fin R) (k' : Fin C) :
    (rowScatterDims N C R wf).start (ix2 r k') idx (0 : Fin 2) = (idx (ix2 r (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 r k')
      ⟨List.idxOf (0 : Fin 2) (rowScatterDims N C R wf).scatterDimsToOperandDims,
        List.idxOf_lt_length_iff.2 (List.mem_singleton.mpr rfl)⟩ = ix2 r (0 : Fin 1) := by
    funext a; refine Fin.ext ?_
    match a with
    | ⟨0, _⟩ => rfl
    | ⟨1, _⟩ => rfl
  rw [hsi]

/-- On the column axis the window starts at zero. -/
theorem rows_start_one (r : Fin R) (k' : Fin C) :
    (rowScatterDims N C R wf).start (ix2 r k') idx (1 : Fin 2) = 0 := by
  unfold ScatterDims.start
  rw [dif_neg (show (1 : Fin 2) ∉ (rowScatterDims N C R wf).scatterDimsToOperandDims from
    (by decide : (1 : Fin 2) ∉ ([0] : List (Fin 2))))]

/-- WHERE AN UPDATE ENTRY LANDS: update entry (r, k') lands at table entry (b, k) exactly when start index r, read
    as a signed integer, is b, and k' is k. -/
theorem rows_resultIdx_iff (r : Fin R) (k' : Fin C) (b : Fin N) (k : Fin C) :
    (rowScatterDims N C R wf).resultIdx? (ix2 r k') idx = some (ix2 b k) ↔
      (idx (ix2 r (0 : Fin 1))).toInt = (b.val : ℤ) ∧ k' = k := by
  have s0 := rows_start_zero wf idx r k'
  have s1 := rows_start_one wf idx r k'
  have w0 := rows_window_zero wf r k'
  have w1 := rows_window_one wf r k'
  have hN : (⟨2, ![N, C]⟩ : Shape).size (0 : Fin 2) = N := rfl
  have hC : (⟨2, ![N, C]⟩ : Shape).size (1 : Fin 2) = C := rfl
  have hb := b.isLt
  have hk := k.isLt
  have hk' := k'.isLt
  unfold ScatterDims.resultIdx?
  split
  · rename_i h
    have h0 := h (0 : Fin 2)
    rw [s0, w0] at h0
    constructor
    · intro he
      have he' := Option.some.inj he
      have e0 : ((rowScatterDims N C R wf).start (ix2 r k') idx (0 : Fin 2)
          + ((rowScatterDims N C R wf).window (ix2 r k') (0 : Fin 2) : ℕ)).toNat = b.val :=
        congrArg Fin.val (congrFun he' (0 : Fin 2))
      have e1 : ((rowScatterDims N C R wf).start (ix2 r k') idx (1 : Fin 2)
          + ((rowScatterDims N C R wf).window (ix2 r k') (1 : Fin 2) : ℕ)).toNat = k.val :=
        congrArg Fin.val (congrFun he' (1 : Fin 2))
      rw [s0, w0] at e0
      rw [s1, w1] at e1
      exact ⟨by omega, Fin.ext (by omega)⟩
    · rintro ⟨hbe, hke⟩
      refine congrArg some (funext (Fin.forall_fin_two.2 ⟨Fin.ext ?_, Fin.ext ?_⟩))
      · show ((rowScatterDims N C R wf).start (ix2 r k') idx (0 : Fin 2)
          + ((rowScatterDims N C R wf).window (ix2 r k') (0 : Fin 2) : ℕ)).toNat = b.val
        rw [s0, w0]; omega
      · show ((rowScatterDims N C R wf).start (ix2 r k') idx (1 : Fin 2)
          + ((rowScatterDims N C R wf).window (ix2 r k') (1 : Fin 2) : ℕ)).toNat = k.val
        rw [s1, w1, hke]; omega
  · rename_i h
    constructor
    · intro he; exact absurd he (by simp)
    · rintro ⟨hbe, hke⟩
      exfalso; apply h
      refine Fin.forall_fin_two.2 ⟨?_, ?_⟩
      · rw [s0, w0, hN]; omega
      · rw [s1, w1, hC]; omega

/-- The same for an update index not yet split into its coordinates. -/
theorem rows_resultIdx_iff' (j : (⟨2, ![R, C]⟩ : Shape).Idx) (b : Fin N) (k : Fin C) :
    (rowScatterDims N C R wf).resultIdx? j idx = some (ix2 b k) ↔
      (idx (ix2 (j (0 : Fin 2)) (0 : Fin 1))).toInt = (b.val : ℤ) ∧ j (1 : Fin 2) = k := by
  have e : (ix2 (j (0 : Fin 2)) (j (1 : Fin 2)) : (⟨2, ![R, C]⟩ : Shape).Idx) = j := (eq_ix2 j).symm
  have h := rows_resultIdx_iff wf idx (j (0 : Fin 2)) (j (1 : Fin 2)) b k
  rw [e] at h
  exact h

end Rows

/-- THE ROW SCATTER READ AT (b, k): the table's entry plus the sum, over the update rows whose start index, read as
    a signed integer, is b, of their entry in column k. -/
theorem scatterAdd_rows_apply {N C R w : ℕ}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (b : Fin N) (k : Fin C) :
    Ideal.hostScatterAdd (rowScatterDims N C R wf) x idx upd (ix2 b k) = x (ix2 b k)
      + ∑ r ∈ Finset.univ.filter (fun r : Fin R => (idx (ix2 r (0 : Fin 1))).toInt = (b.val : ℤ)), upd (ix2 r k) := by
  unfold Ideal.hostScatterAdd
  congr 1
  refine Finset.sum_nbij' (fun j => ((j (0 : Fin 2)) : Fin R)) (fun r => (ix2 r k : (⟨2, ![R, C]⟩ : Shape).Idx))
    ?_ ?_ ?_ ?_ ?_
  · intro j hj
    have hj' := (rows_resultIdx_iff' wf idx j b k).1 (Finset.mem_filter.1 hj).2
    exact Finset.mem_filter.2 ⟨Finset.mem_univ _, hj'.1⟩
  · intro r hr
    exact Finset.mem_filter.2 ⟨Finset.mem_univ _,
      (rows_resultIdx_iff wf idx r k b k).2 ⟨(Finset.mem_filter.1 hr).2, rfl⟩⟩
  · intro j hj
    have hj' := (rows_resultIdx_iff' wf idx j b k).1 (Finset.mem_filter.1 hj).2
    show ix2 (j (0 : Fin 2)) k = j
    rw [← hj'.2]; exact (eq_ix2 j).symm
  · intro r _; rfl
  · intro j hj
    have hj' := (rows_resultIdx_iff' wf idx j b k).1 (Finset.mem_filter.1 hj).2
    show upd j = upd (ix2 (j (0 : Fin 2)) k)
    rw [← hj'.2]; exact congrArg upd (eq_ix2 j)

/-! ## Update entries added into a vector -/

/-- The dimension numbers of a scatter of single entries into a vector: a vector of N entries, a column of R start
    indices, R update entries; the vector's one axis is named by the start index and there is no window axis. -/
abbrev vecScatterDims (N R : ℕ)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec

variable {N R : ℕ} (wf : ScatterDims.WF ⟨1, ![N]⟩ ⟨2, ![R, 1]⟩ ⟨1, ![R]⟩ [] [0] [0] 1)

/-- The window coordinate of an update entry is zero: the place comes from the start index alone. -/
theorem vec_window_zero (r : Fin R) :
    (vecScatterDims N R wf).window (ix1 r) (0 : Fin 1) = 0 := by
  unfold ScatterDims.window
  rw [dif_neg (show (0 : Fin 1) ∉ (vecScatterDims N R wf).sKept from
    (by decide : (0 : Fin 1) ∉ ([] : List (Fin 1))))]

variable {w : ℕ} (idx : IVec ⟨2, ![R, 1]⟩ w)

/-- The window of update entry r starts at start index r, read as a signed integer. -/
theorem vec_start_zero (r : Fin R) :
    (vecScatterDims N R wf).start (ix1 r) idx (0 : Fin 1) = (idx (ix2 r (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 r)
      ⟨List.idxOf (0 : Fin 1) (vecScatterDims N R wf).scatterDimsToOperandDims,
        List.idxOf_lt_length_iff.2 (List.mem_singleton.mpr rfl)⟩ = ix2 r (0 : Fin 1) := by
    funext a; refine Fin.ext ?_
    match a with
    | ⟨0, _⟩ => rfl
    | ⟨1, _⟩ => rfl
  rw [hsi]

/-- WHERE AN UPDATE ENTRY LANDS: update entry r lands at vector entry b exactly when start index r, read as a signed
    integer, is b. -/
theorem vec_resultIdx_iff (r : Fin R) (b : Fin N) :
    (vecScatterDims N R wf).resultIdx? (ix1 r) idx = some (ix1 b) ↔
      (idx (ix2 r (0 : Fin 1))).toInt = (b.val : ℤ) := by
  have s0 := vec_start_zero wf idx r
  have w0 := vec_window_zero wf r
  have hN : (⟨1, ![N]⟩ : Shape).size (0 : Fin 1) = N := rfl
  have hb := b.isLt
  unfold ScatterDims.resultIdx?
  split
  · rename_i h
    have h0 := h (0 : Fin 1)
    rw [s0, w0] at h0
    constructor
    · intro he
      have he' := Option.some.inj he
      have e0 : ((vecScatterDims N R wf).start (ix1 r) idx (0 : Fin 1)
          + ((vecScatterDims N R wf).window (ix1 r) (0 : Fin 1) : ℕ)).toNat = b.val :=
        congrArg Fin.val (congrFun he' (0 : Fin 1))
      rw [s0, w0] at e0
      omega
    · intro hbe
      refine congrArg some (funext (Fin.forall_fin_one.2 (Fin.ext ?_)))
      show ((vecScatterDims N R wf).start (ix1 r) idx (0 : Fin 1)
          + ((vecScatterDims N R wf).window (ix1 r) (0 : Fin 1) : ℕ)).toNat = b.val
      rw [s0, w0]; omega
  · rename_i h
    constructor
    · intro he; exact absurd he (by simp)
    · intro hbe
      exfalso; apply h
      refine Fin.forall_fin_one.2 ?_
      rw [s0, w0, hN]; omega

/-- The same for an update index not yet split into its coordinate. -/
theorem vec_resultIdx_iff' (j : (⟨1, ![R]⟩ : Shape).Idx) (b : Fin N) :
    (vecScatterDims N R wf).resultIdx? j idx = some (ix1 b) ↔
      (idx (ix2 (j (0 : Fin 1)) (0 : Fin 1))).toInt = (b.val : ℤ) := by
  have e : (ix1 (j (0 : Fin 1)) : (⟨1, ![R]⟩ : Shape).Idx) = j := (eq_ix1 j).symm
  have h := vec_resultIdx_iff wf idx (j (0 : Fin 1)) b
  rw [e] at h
  exact h

end Vec

/-- THE VECTOR SCATTER READ AT b: the vector's entry plus the sum of the update entries whose start index, read as a
    signed integer, is b. -/
theorem scatterAdd_vec_apply {N R w : ℕ}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (b : Fin N) :
    Ideal.hostScatterAdd (vecScatterDims N R wf) x idx upd (ix1 b) = x (ix1 b)
      + ∑ r ∈ Finset.univ.filter (fun r : Fin R => (idx (ix2 r (0 : Fin 1))).toInt = (b.val : ℤ)), upd (ix1 r) := by
  unfold Ideal.hostScatterAdd
  congr 1
  refine Finset.sum_nbij' (fun j => ((j (0 : Fin 1)) : Fin R)) (fun r => (ix1 r : (⟨1, ![R]⟩ : Shape).Idx))
    ?_ ?_ ?_ ?_ ?_
  · intro j hj
    exact Finset.mem_filter.2 ⟨Finset.mem_univ _, (vec_resultIdx_iff' wf idx j b).1 (Finset.mem_filter.1 hj).2⟩
  · intro r hr
    exact Finset.mem_filter.2 ⟨Finset.mem_univ _, (vec_resultIdx_iff wf idx r b).2 (Finset.mem_filter.1 hr).2⟩
  · intro j _
    exact (eq_ix1 j).symm
  · intro r _; rfl
  · intro j _
    exact congrArg upd (eq_ix1 j)

end Cert.ScatterLib

end
-- ==== Proof.Spec.lean ====
/-
  A two-layer graph convolution as functions of whole arrays over the extended reals, in two arrangements.

  The graph has 100000 nodes and 1700000 edges; edge e runs from node `src e` to node `dst e`. A node's degree is
  the number of edges that end at it, and its factor d(n) is the inverse square root of its degree (zero for a
  node no edge ends at). One layer with weights W and bias b sends a feature array X to

      out(n, k) = Σ over the edges e ending at n of (X W)(src e, k) · d(src e) · d(n)   +  b(k).

  The FIRST arrangement scales the rows of X W by d before the edges are walked and scales the sums by d again
  afterwards; the SECOND multiplies every edge's row by the edge's own factor d(src e) · d(dst e) while walking.
  They agree because a finite sum of real numbers distributes over a real factor; on the extended reals this needs
  every quantity finite, which the inputs' finiteness gives.

  A start index that names no node: a gathered row index is first wrapped (a negative index has the number of
  nodes added) and then clamped into the table, exactly as an indexing gather does; an edge whose end index is
  outside the table contributes to no sum.
-/
import proofs.«127769_j32942399160959_2_alg».proof.Proof.LibDense
import proofs.«127769_j32942399160959_2_alg».proof.Proof.LibRows
import proofs.«127769_j32942399160959_2_alg».proof.Proof.LibScatter
import Idealize.ShloMosaic.Lib.IdealHost

noncomputable section

namespace Cert.Gcn

open Idealize.ShloMosaic Idealize.ShloMosaic.ValueIdx Cert.LayoutLib Cert.DenseLib Cert.RowsLib

/-! ## Arrays -/

/-- Every entry is a real number. -/
def AllReal {s : Shape} (X : s.Idx → EReal) : Prop := ∀ i, ∃ r : ℝ, X i = (r : EReal)

/-- Each row of `H` scaled by its row's entry of the one-column array `d`. -/
def scaleRows {M C : ℕ} (H : (⟨2, ![M, C]⟩ : Shape).Idx → EReal) (d : (⟨2, ![M, 1]⟩ : Shape).Idx → EReal) :
    (⟨2, ![M, C]⟩ : Shape).Idx → EReal :=
  fun i => H i * d (ix2 (n0 := M) (i 0) (0 : Fin 1))

/-- A one-row array laid along every row. -/
def rowsOf {M C : ℕ} (b : (⟨2, ![1, C]⟩ : Shape).Idx → EReal) : (⟨2, ![M, C]⟩ : Shape).Idx → EReal :=
  rows (M := M) fun c => b (ix2 (0 : Fin 1) c)

/-- A vector as one column. -/
def colOf {M : ℕ} (v : (⟨1, ![M]⟩ : Shape).Idx → EReal) : (⟨2, ![M, 1]⟩ : Shape).Idx → EReal := fun i => v (ix1 (i 0))

/-- A vector as one row. -/
def rowOfVec {C : ℕ} (v : (⟨1, ![C]⟩ : Shape).Idx → EReal) : (⟨2, ![1, C]⟩ : Shape).Idx → EReal := fun i => v (ix1 (i 1))

/-- The rows of `H` that the row indices `s` name, one per edge. -/
def takeRows {N E C : ℕ} (s : Fin E → Fin N) (H : (⟨2, ![N, C]⟩ : Shape).Idx → EReal) :
    (⟨2, ![E, C]⟩ : Shape).Idx → EReal :=
  fun j => H (ix2 (s (j 0)) (j 1))

/-- The edge rows `U` summed into the node each edge ends at: entry (n, k) is zero plus the sum, over the edges e
    with `t e = n`, of `U (e, k)`. -/
def sumInto {N E C : ℕ} (t : Fin E → ℤ) (U : (⟨2, ![E, C]⟩ : Shape).Idx → EReal) :
    (⟨2, ![N, C]⟩ : Shape).Idx → EReal :=
  fun i => 0 + ∑ e ∈ Finset.univ.filter (fun e : Fin E => t e = (((i 0 : Fin N).val : ℕ) : ℤ)), U (ix2 e (i 1))

/-! ## The three dense stages, at any number of rows -/

/-- `(X W)` with every row scaled by `d`. -/
def stage0 {M : ℕ} (X : (⟨2, ![M, 128]⟩ : Shape).Idx → EReal) (W : (⟨2, ![128, 64]⟩ : Shape).Idx → EReal)
    (d : (⟨2, ![M, 1]⟩ : Shape).Idx → EReal) : (⟨2, ![M, 64]⟩ : Shape).Idx → EReal :=
  scaleRows (mm X W) d

/-- The first layer's sums scaled by `d`, the bias added, cut at zero, multiplied by the second weights, and scaled by `d`. -/
def stage1 {M : ℕ} (A : (⟨2, ![M, 64]⟩ : Shape).Idx → EReal) (d : (⟨2, ![M, 1]⟩ : Shape).Idx → EReal)
    (b : (⟨2, ![1, 64]⟩ : Shape).Idx → EReal) (W : (⟨2, ![64, 16]⟩ : Shape).Idx → EReal) :
    (⟨2, ![M, 16]⟩ : Shape).Idx → EReal :=
  scaleRows (mm (relu (plus (scaleRows A d) (rowsOf b))) W) d

/-- The second layer's sums scaled by `d`, the bias added. -/
def stage2 {M : ℕ} (A : (⟨2, ![M, 16]⟩ : Shape).Idx → EReal) (d : (⟨2, ![M, 1]⟩ : Shape).Idx → EReal)
    (b : (⟨2, ![1, 16]⟩ : Shape).Idx → EReal) : (⟨2, ![M, 16]⟩ : Shape).Idx → EReal :=
  plus (scaleRows A d) (rowsOf b)

/-! ## The graph: row indices and node factors from the edge lists -/

/-- A gathered index wrapped: a negative one has the number of nodes added. -/
def wrapped (a : BitVec 32) : BitVec 32 := Scalar.select (IntOp.cmpi .slt a 0#32) (IntOp.addi a 100000#32) a

/-- The node row an edge's index names in a gather: wrapped, then clamped into the table. -/
def nodeRow (a : IVec ⟨1, ![1700000]⟩ 32) : Fin 1700000 → Fin 100000 :=
  fun e => rowOf 100000 (by norm_num) (wrapped (a (ix1 e)))

/-- The node an edge's index names in a scatter: the index read as a signed integer (outside the table: no node). -/
def nodeOf (a : IVec ⟨1, ![1700000]⟩ 32) : Fin 1700000 → ℤ := fun e => (a (ix1 e)).toInt

/-- A node's degree: zero plus one for every edge that ends at it. -/
def degAt (dst : IVec ⟨1, ![1700000]⟩ 32) (n : Fin 100000) : EReal :=
  Ideal.ofBits .f32 0x00000000#32
    + ∑ _e ∈ Finset.univ.filter (fun e : Fin 1700000 => nodeOf dst e = ((n.val : ℕ) : ℤ)), Ideal.ofBits .f32 0x3F800000#32

/-- The factor of a node of degree `g`: the inverse square root of `max g 1` where `g` is positive, else zero. -/
def facOf (g : EReal) : EReal :=
  Scalar.select (FloatOps.cmpf (F := Ideal) .ogt g (Ideal.ofBits .f32 0x00000000#32))
    (FloatOps.hostUnary (F := Ideal) .rsqrt (FloatOps.maximumf (F := Ideal) g (Ideal.ofBits .f32 0x3F800000#32)))
    (Ideal.ofBits .f32 0x00000000#32)

/-- The vector of node factors. -/
def facVec (dst : IVec ⟨1, ![1700000]⟩ 32) : (⟨1, ![100000]⟩ : Shape).Idx → EReal := fun i => facOf (degAt dst (i 0))

/-! ## The two arrangements -/

/-- FIRST arrangement: rows scaled before the edges are walked and after. -/
def scaledNodes (x : (⟨2, ![100000, 128]⟩ : Shape).Idx → EReal) (src dst : IVec ⟨1, ![1700000]⟩ 32)
    (W1 : (⟨2, ![128, 64]⟩ : Shape).Idx → EReal) (b1 : (⟨1, ![64]⟩ : Shape).Idx → EReal)
    (W2 : (⟨2, ![64, 16]⟩ : Shape).Idx → EReal) (b2 : (⟨1, ![16]⟩ : Shape).Idx → EReal) :
    (⟨2, ![100000, 16]⟩ : Shape).Idx → EReal :=
  stage2 (sumInto (nodeOf dst) (takeRows (nodeRow src)
      (stage1 (sumInto (nodeOf dst) (takeRows (nodeRow src) (stage0 x W1 (colOf (facVec dst)))))
        (colOf (facVec dst)) (rowOfVec b1) W2)))
    (colOf (facVec dst)) (rowOfVec b2)

/-- An edge's own factor: the product of its two end nodes' factors, each node named as a gather names it. -/
def edgeFac (src dst : IVec ⟨1, ![1700000]⟩ 32) (e : Fin 1700000) : EReal :=
  facVec dst (ix1 (nodeRow src e)) * facVec dst (ix1 (nodeRow dst e))

/-- One layer of the second arrangement: the rows of `P` taken along the edges, each multiplied by its edge's
    factor, summed into the node the edge ends at, the bias added. -/
def edgeLayer {C : ℕ} (src dst : IVec ⟨1, ![1700000]⟩ 32) (P : (⟨2, ![100000, C]⟩ : Shape).Idx → EReal)
    (b : (⟨1, ![C]⟩ : Shape).Idx → EReal) : (⟨2, ![100000, C]⟩ : Shape).Idx → EReal :=
  plus (sumInto (nodeOf dst) (fun j => takeRows (nodeRow src) P j * edgeFac src dst (j 0)))
    (rows (M := 100000) fun c => b (ix1 c))

/-- SECOND arrangement: every edge's row multiplied by the edge's own factor. -/
def scaledEdges (x : (⟨2, ![100000, 128]⟩ : Shape).Idx → EReal) (src dst : IVec ⟨1, ![1700000]⟩ 32)
    (W1 : (⟨2, ![128, 64]⟩ : Shape).Idx → EReal) (b1 : (⟨1, ![64]⟩ : Shape).Idx → EReal)
    (W2 : (⟨2, ![64, 16]⟩ : Shape).Idx → EReal) (b2 : (⟨1, ![16]⟩ : Shape).Idx → EReal) :
    (⟨2, ![100000, 16]⟩ : Shape).Idx → EReal :=
  edgeLayer src dst (mm (relu (edgeLayer src dst (mm x W1) b1)) W2) b2

end Cert.Gcn

end
-- ==== Proof.RefValue.lean ====
/-
  The reference program's result, operation by operation, is the second arrangement of the two-layer graph
  convolution: every edge's row multiplied by the edge's own factor while the edges are walked.

  The steps: the degree vector is a scatter-add of ones, so a node's degree is zero plus one per edge ending at it;
  the node factor is the inverse square root of the degree (zero at degree zero); a gather of a vector at a column of
  start indices reads the vector at the clamped start index; the wrapped index columns are the wrapped edge lists;
  a layer is a product, a gather of rows, an entrywise product with the edge factor laid along each row, a
  scatter-add of rows into a zero table, and a bias row added to every row.
-/
import proofs.«127769_j32942399160959_2_alg».proof.Proof.RefReadP
import proofs.«127769_j32942399160959_2_alg».proof.Proof.Spec

noncomputable section

namespace Cert.ReferenceIdeal.RefValue

open Cert.ReferenceIdeal Cert.ReferenceIdeal.Gen Cert.ReferenceIdeal.ReadP
open Idealize.ShloMosaic Idealize.ShloMosaic.ValueIdx
open Cert.LayoutLib Cert.DenseLib Cert.RowsLib Cert.ScatterLib Cert.Gcn

/-! ## A gather of single entries of a vector -/

/-- The dimension numbers of a gather of single entries: a vector of N entries, a column of R start indices, a result
    of R entries; the vector's one axis is collapsed and named by the start index, and there is no offset axis. -/
abbrev vecGatherDims (N R : ℕ)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE VECTOR GATHER READ AT e: the vector at the entry that start index e names (read signed, clamped). -/
theorem gather_vec_apply {α : Type} {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (rowOf N hN (idx (ix2 e (0 : Fin 1))))) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## The node factors -/

/-- The end list as one column reads the end list. -/
theorem v2_apply (x2 : (⟨S1700000, .i32⟩ : BufTy).Contents (Elt Ideal)) (e : Fin 1700000) (u : Fin 1) :
    val_main_v2 (F := Ideal) x2 (ix2 e u) = x2 (ix1 e) := by
  unfold val_main_v2
  exact broadcastInDim_vecCol_apply _ x2 e u

/-- The scatter-add of ones into zeros at the end list is the degree: zero plus one per edge ending at the node. -/
theorem v3_apply (x2 : (⟨S1700000, .i32⟩ : BufTy).Contents (Elt Ideal)) (n : Fin 100000) :
    val_main_v3 (F := Ideal) x2 (ix1 n) = degAt x2 n := by
  have h : val_main_v3 (F := Ideal) x2 = Ideal.hostScatterAdd
      (vecScatterDims 100000 1700000 scatter_S100000_S1700000x1_S1700000_n_0_0_1_wf)
      (val_main_v1 (F := Ideal)) (val_main_v2 (F := Ideal) x2) (val_main_v0 (F := Ideal)) := rfl
  refine (congrFun h (ix1 n)).trans ?_
  refine (scatterAdd_vec_apply _ _ _ _ n).trans ?_
  have h1 : val_main_v1 (F := Ideal) (ix1 n) = Ideal.ofBits .f32 0x00000000#32 := by
    rw [val_main_v1_apply]; rfl
  have h0 : ∀ r : Fin 1700000, val_main_v0 (F := Ideal) (ix1 r) = Ideal.ofBits .f32 0x3F800000#32 := fun r => by
    rw [val_main_v0_apply]; rfl
  rw [h1]
  unfold degAt
  refine congrArg (Ideal.ofBits .f32 0x00000000#32 + ·) ?_
  refine Finset.sum_congr (Finset.filter_congr fun r _ => ?_) fun r _ => h0 r
  rw [v2_apply]; rfl

/-- The selected inverse square root of the degree is the node factor. -/
theorem v9_eq (x2 : (⟨S1700000, .i32⟩ : BufTy).Contents (Elt Ideal)) : val_main_v9 (F := Ideal) x2 = facVec x2 := by
  funext i
  obtain ⟨n, rfl⟩ : ∃ n : Fin 100000, i = ix1 n := ⟨i 0, eq_ix1 i⟩
  rw [val_main_v9_apply, val_main_v5_apply, val_main_v8_apply, val_main_v7_apply, val_main_v4_apply, val_main_v6_apply,
    val_main_call0_v1_apply, v3_apply]
  rfl

/-! ## The wrapped index columns -/

theorem v15_apply (x1 : (⟨S1700000, .i32⟩ : BufTy).Contents (Elt Ideal)) (e : Fin 1700000) (u : Fin 1) :
    val_main_v15 (F := Ideal) x1 (ix2 e u) = wrapped (x1 (ix1 e)) := by
  unfold val_main_v15
  refine (broadcastInDim_vecCol_apply _ _ e u).trans ?_
  rw [val_main_v14_apply, val_main_v11_apply, val_main_v13_apply, val_main_v10_apply, val_main_v12_apply]
  rfl

theorem v22_apply (x2 : (⟨S1700000, .i32⟩ : BufTy).Contents (Elt Ideal)) (e : Fin 1700000) (u : Fin 1) :
    val_main_v22 (F := Ideal) x2 (ix2 e u) = wrapped (x2 (ix1 e)) := by
  unfold val_main_v22
  refine (broadcastInDim_vecCol_apply _ _ e u).trans ?_
  rw [val_main_v21_apply, val_main_v18_apply, val_main_v20_apply, val_main_v17_apply, val_main_v19_apply]
  rfl

theorem v31_apply (x1 : (⟨S1700000, .i32⟩ : BufTy).Contents (Elt Ideal)) (e : Fin 1700000) (u : Fin 1) :
    val_main_v31 (F := Ideal) x1 (ix2 e u) = wrapped (x1 (ix1 e)) := by
  unfold val_main_v31
  refine (broadcastInDim_vecCol_apply _ _ e u).trans ?_
  rw [val_main_v30_apply, val_main_v27_apply, val_main_v29_apply, val_main_v26_apply, val_main_v28_apply]
  rfl

theorem v49_apply (x1 : (⟨S1700000, .i32⟩ : BufTy).Contents (Elt Ideal)) (e : Fin 1700000) (u : Fin 1) :
    val_main_v49 (F := Ideal) x1 (ix2 e u) = wrapped (x1 (ix1 e)) := by
  unfold val_main_v49
  refine (broadcastInDim_vecCol_apply _ _ e u).trans ?_
  rw [val_main_v48_apply, val_main_v45_apply, val_main_v47_apply, val_main_v44_apply, val_main_v46_apply]
  rfl

/-! ## The edge factors -/

/-- The node factor gathered at the wrapped start list is the factor of the node the edge starts at. -/
theorem v16_apply (x1 x2 : (⟨S1700000, .i32⟩ : BufTy).Contents (Elt Ideal)) (e : Fin 1700000) :
    val_main_v16 (F := Ideal) x1 x2 (ix1 e) = facVec x2 (ix1 (nodeRow x1 e)) := by
  have h : val_main_v16 (F := Ideal) x1 x2 = Host.gather
      (vecGatherDims 100000 1700000 gather_S100000_S1700000x1_S1700000_n_0_n_n_0_1_1_wf)
      (val_main_v9 (F := Ideal) x2) (val_main_v15 (F := Ideal) x1) := rfl
  refine (congrFun h (ix1 e)).trans ?_
  rw [gather_vec_apply (N := 100000) (by norm_num), v15_apply, v9_eq]
  rfl

/-- The node factor gathered at the wrapped end list is the factor of the node the edge ends at, named as a gather
    names it. -/
theorem v23_apply (x2 : (⟨S1700000, .i32⟩ : BufTy).Contents (Elt Ideal)) (e : Fin 1700000) :
    val_main_v23 (F := Ideal) x2 (ix1 e) = facVec x2 (ix1 (nodeRow x2 e)) := by
  have h : val_main_v23 (F := Ideal) x2 = Host.gather
      (vecGatherDims 100000 1700000 gather_S100000_S1700000x1_S1700000_n_0_n_n_0_1_1_wf)
      (val_main_v9 (F := Ideal) x2) (val_main_v22 (F := Ideal) x2) := rfl
  refine (congrFun h (ix1 e)).trans ?_
  rw [gather_vec_apply (N := 100000) (by norm_num), v22_apply, v9_eq]
  rfl

/-- Their product is the edge's own factor. -/
theorem v24_apply (x1 x2 : (⟨S1700000, .i32⟩ : BufTy).Contents (Elt Ideal)) (e : Fin 1700000) :
    val_main_v24 (F := Ideal) x1 x2 (ix1 e) = edgeFac x1 x2 e := by
  rw [val_main_v24_apply, v16_apply, v23_apply]
  rfl

/-- The edge factor laid along a row of 64 entries. -/
theorem v34_apply (x1 x2 : (⟨S1700000, .i32⟩ : BufTy).Contents (Elt Ideal)) (e : Fin 1700000) (k : Fin 64) :
    val_main_v34 (F := Ideal) x1 x2 (ix2 e k) = edgeFac x1 x2 e := by
  unfold val_main_v34 val_main_v33
  refine (broadcastInDim_col_apply _ _ e k).trans ?_
  refine (broadcastInDim_vecCol_apply _ _ e (0 : Fin 1)).trans ?_
  exact v24_apply x1 x2 e

/-- The edge factor laid along a row of 16 entries. -/
theorem v52_apply (x1 x2 : (⟨S1700000, .i32⟩ : BufTy).Contents (Elt Ideal)) (e : Fin 1700000) (k : Fin 16) :
    val_main_v52 (F := Ideal) x1 x2 (ix2 e k) = edgeFac x1 x2 e := by
  unfold val_main_v52 val_main_v51
  refine (broadcastInDim_col_apply _ _ e k).trans ?_
  refine (broadcastInDim_vecCol_apply _ _ e (0 : Fin 1)).trans ?_
  exact v24_apply x1 x2 e

/-! ## One layer -/

/-- Rows of a table gathered at a wrapped index column, multiplied entrywise by the edge factor laid along each row,
    and scatter-added into a zero table at the end list: the rows taken along the edges, each multiplied by its
    edge's factor, summed into the node the edge ends at. -/
theorem walk_eq {C : ℕ}
    (wfs : ScatterDims.WF ⟨2, ![100000, C]⟩ ⟨2, ![1700000, 1]⟩ ⟨2, ![1700000, C]⟩ [1] [0] [0] 1)
    (wfg : GatherDims.WF ⟨2, ![100000, C]⟩ ⟨2, ![1700000, 1]⟩ ⟨2, ![1700000, C]⟩ [1] [0] [] [0] [] 1 ![1, C])
    (src dst : IVec ⟨1, ![1700000]⟩ 32)
    (P z : (⟨2, ![100000, C]⟩ : Shape).Idx → EReal)
    (iS iG : IVec ⟨2, ![1700000, 1]⟩ 32) (fac : (⟨2, ![1700000, C]⟩ : Shape).Idx → EReal)
    (hz : ∀ i, z i = 0)
    (hS : ∀ e : Fin 1700000, iS (ix2 e (0 : Fin 1)) = dst (ix1 e))
    (hG : ∀ e : Fin 1700000, iG (ix2 e (0 : Fin 1)) = wrapped (src (ix1 e)))
    (hfac : ∀ (e : Fin 1700000) (k : Fin C), fac (ix2 e k) = edgeFac src dst e) :
    Ideal.hostScatterAdd (rowScatterDims 100000 C 1700000 wfs) z iS
        (mulf (F := Ideal) (φ := .f32) (Host.gather (rowGatherDims 100000 C 1700000 wfg) P iG) fac)
      = sumInto (nodeOf dst) (fun j => takeRows (nodeRow src) P j * edgeFac src dst (j 0)) := by
  funext i
  obtain ⟨b, k, rfl⟩ : ∃ (b : Fin 100000) (k : Fin C), i = ix2 b k := ⟨i 0, i 1, eq_ix2 i⟩
  refine (scatterAdd_rows_apply wfs _ _ _ b k).trans ?_
  rw [hz]
  unfold sumInto
  refine congrArg ((0 : EReal) + ·) ?_
  refine Finset.sum_congr (Finset.filter_congr fun r _ => ?_) fun r _ => ?_
  · rw [hS]; rfl
  · show Host.gather (rowGatherDims 100000 C 1700000 wfg) P iG (ix2 r k) * fac (ix2 r k)
      = takeRows (nodeRow src) P (ix2 r k) * edgeFac src dst r
    rw [gather_rows_apply (N := 100000) (by norm_num), hG, hfac]
    rfl

/-- With the bias laid along every row added, that is one layer of the second arrangement. -/
theorem layer_eq {C : ℕ}
    (wfs : ScatterDims.WF ⟨2, ![100000, C]⟩ ⟨2, ![1700000, 1]⟩ ⟨2, ![1700000, C]⟩ [1] [0] [0] 1)
    (wfg : GatherDims.WF ⟨2, ![100000, C]⟩ ⟨2, ![1700000, 1]⟩ ⟨2, ![1700000, C]⟩ [1] [0] [] [0] [] 1 ![1, C])
    (src dst : IVec ⟨1, ![1700000]⟩ 32)
    (P z : (⟨2, ![100000, C]⟩ : Shape).Idx → EReal) (b : (⟨1, ![C]⟩ : Shape).Idx → EReal)
    (iS iG : IVec ⟨2, ![1700000, 1]⟩ 32) (fac : (⟨2, ![1700000, C]⟩ : Shape).Idx → EReal)
    (hz : ∀ i, z i = 0)
    (hS : ∀ e : Fin 1700000, iS (ix2 e (0 : Fin 1)) = dst (ix1 e))
    (hG : ∀ e : Fin 1700000, iG (ix2 e (0 : Fin 1)) = wrapped (src (ix1 e)))
    (hfac : ∀ (e : Fin 1700000) (k : Fin C), fac (ix2 e k) = edgeFac src dst e) :
    plus (Ideal.hostScatterAdd (rowScatterDims 100000 C 1700000 wfs) z iS
        (mulf (F := Ideal) (φ := .f32) (Host.gather (rowGatherDims 100000 C 1700000 wfg) P iG) fac))
        (rows (M := 100000) fun c => b (ix1 c))
      = edgeLayer src dst P b := by
  unfold edgeLayer
  rw [walk_eq wfs wfg src dst P z iS iG fac hz hS hG hfac]

/-! ## The two layers of the program -/

/-- The end list as one column, first layer. -/
theorem v37_apply (x2 : (⟨S1700000, .i32⟩ : BufTy).Contents (Elt Ideal)) (e : Fin 1700000) (u : Fin 1) :
    val_main_v37 (F := Ideal) x2 (ix2 e u) = x2 (ix1 e) := by
  unfold val_main_v37
  exact broadcastInDim_vecCol_apply _ x2 e u

/-- The end list as one column, second layer. -/
theorem v55_apply (x2 : (⟨S1700000, .i32⟩ : BufTy).Contents (Elt Ideal)) (e : Fin 1700000) (u : Fin 1) :
    val_main_v55 (F := Ideal) x2 (ix2 e u) = x2 (ix1 e) := by
  unfold val_main_v55
  exact broadcastInDim_vecCol_apply _ x2 e u

/-- The first layer's zero table. -/
theorem v36_apply (i : S100000x64.Idx) : val_main_v36 (F := Ideal) i = 0 := by
  rw [val_main_v36_apply]
  exact Ideal.ofBits_zero_f32

/-- The second layer's zero table. -/
theorem v54_apply (i : S100000x16.Idx) : val_main_v54 (F := Ideal) i = 0 := by
  rw [val_main_v54_apply]
  exact Ideal.ofBits_zero_f32

/-- The first layer before the cut at zero. -/
theorem v41_eq (x0 : (⟨S100000x128, .f32⟩ : BufTy).Contents (Elt Ideal)) (x1 x2 : (⟨S1700000, .i32⟩ : BufTy).Contents (Elt Ideal))
    (x3 : (⟨S128x64, .f32⟩ : BufTy).Contents (Elt Ideal)) (x4 : (⟨S64, .f32⟩ : BufTy).Contents (Elt Ideal)) :
    val_main_v41 (F := Ideal) x0 x1 x2 x3 x4 = edgeLayer x1 x2 (mm x0 x3) x4 := by
  have h25 : val_main_v25 (F := Ideal) x0 x3 = mm x0 x3 := by
    unfold val_main_v25
    exact dotGeneral_eq_mm _ rfl x0 x3
  have h38 : val_main_v38 (F := Ideal) x0 x1 x2 x3 = Ideal.hostScatterAdd
      (rowScatterDims 100000 64 1700000 scatter_S100000x64_S1700000x1_S1700000x64_1_0_0_1_wf)
      (val_main_v36 (F := Ideal)) (val_main_v37 (F := Ideal) x2)
      (mulf (F := Ideal) (φ := .f32)
        (Host.gather (rowGatherDims 100000 64 1700000 gather_S100000x64_S1700000x1_S1700000x64_1_0_n_n_0_1_164_wf)
          (val_main_v25 (F := Ideal) x0 x3) (val_main_v31 (F := Ideal) x1))
        (val_main_v34 (F := Ideal) x1 x2)) := rfl
  have h40 : val_main_v40 (F := Ideal) x4 = rows (M := 100000) fun c => x4 (ix1 c) := by
    unfold val_main_v40 val_main_v39
    exact broadcastInDim_eq_rows x4 _ _
  have h41 : val_main_v41 (F := Ideal) x0 x1 x2 x3 x4
      = plus (val_main_v38 (F := Ideal) x0 x1 x2 x3) (val_main_v40 (F := Ideal) x4) := rfl
  rw [h41, h38, h40, h25]
  exact layer_eq _ _ x1 x2 (mm x0 x3) _ x4 _ _ _ v36_apply (fun e => v37_apply x2 e 0) (fun e => v31_apply x1 e 0)
    (fun e k => v34_apply x1 x2 e k)

/-- The cut at zero between the layers. -/
theorem v42_eq (x0 : (⟨S100000x128, .f32⟩ : BufTy).Contents (Elt Ideal)) (x1 x2 : (⟨S1700000, .i32⟩ : BufTy).Contents (Elt Ideal))
    (x3 : (⟨S128x64, .f32⟩ : BufTy).Contents (Elt Ideal)) (x4 : (⟨S64, .f32⟩ : BufTy).Contents (Elt Ideal)) :
    val_main_v42 (F := Ideal) x0 x1 x2 x3 x4 = relu (val_main_v41 (F := Ideal) x0 x1 x2 x3 x4) := by
  unfold val_main_v42 val_main_call1_v0 val_main_call1_cst
  exact maximumf_bcast_zero _ _

/-- THE REFERENCE'S RESULT is the second arrangement. -/
theorem ref_eq
    (x0 : (⟨S100000x128, .f32⟩ : BufTy).Contents (Elt Ideal)) (x1 x2 : (⟨S1700000, .i32⟩ : BufTy).Contents (Elt Ideal))
    (x3 : (⟨S128x64, .f32⟩ : BufTy).Contents (Elt Ideal)) (x4 : (⟨S64, .f32⟩ : BufTy).Contents (Elt Ideal))
    (x5 : (⟨S64x16, .f32⟩ : BufTy).Contents (Elt Ideal)) (x6 : (⟨S16, .f32⟩ : BufTy).Contents (Elt Ideal)) :
    Cert.ReferenceIdeal.ReadP.val_main_v59 (F := Ideal) x0 x1 x2 x3 x4 x5 x6 = Cert.Gcn.scaledEdges x0 x1 x2 x3 x4 x5 x6 := by
  have h43 : val_main_v43 (F := Ideal) x0 x1 x2 x3 x4 x5 = mm (val_main_v42 (F := Ideal) x0 x1 x2 x3 x4) x5 := by
    unfold val_main_v43
    exact dotGeneral_eq_mm _ rfl _ x5
  have h56 : val_main_v56 (F := Ideal) x0 x1 x2 x3 x4 x5 = Ideal.hostScatterAdd
      (rowScatterDims 100000 16 1700000 scatter_S100000x16_S1700000x1_S1700000x16_1_0_0_1_wf)
      (val_main_v54 (F := Ideal)) (val_main_v55 (F := Ideal) x2)
      (mulf (F := Ideal) (φ := .f32)
        (Host.gather (rowGatherDims 100000 16 1700000 gather_S100000x16_S1700000x1_S1700000x16_1_0_n_n_0_1_116_wf)
          (val_main_v43 (F := Ideal) x0 x1 x2 x3 x4 x5) (val_main_v49 (F := Ideal) x1))
        (val_main_v52 (F := Ideal) x1 x2)) := rfl
  have h58 : val_main_v58 (F := Ideal) x6 = rows (M := 100000) fun c => x6 (ix1 c) := by
    unfold val_main_v58 val_main_v57
    exact broadcastInDim_eq_rows x6 _ _
  have h59 : val_main_v59 (F := Ideal) x0 x1 x2 x3 x4 x5 x6
      = plus (val_main_v56 (F := Ideal) x0 x1 x2 x3 x4 x5) (val_main_v58 (F := Ideal) x6) := rfl
  rw [h59, h56, h58, h43, v42_eq, v41_eq]
  unfold scaledEdges
  exact layer_eq _ _ x1 x2 _ _ x6 _ _ _ v54_apply (fun e => v55_apply x2 e 0) (fun e => v49_apply x1 e 0)
    (fun e k => v52_apply x1 x2 e k)

end Cert.ReferenceIdeal.RefValue

end
-- ==== Proof.RunValue.lean ====
/-
  The idealized kernel's run with its result named: every weakly fair execution of the program terminates, nothing
  faulting, with the arguments as launched and the returned array holding what the last of the three pipelined
  regions leaves in its output array — the fold of that region's write-backs over its entry contents.
-/
import proofs.«127769_j32942399160959_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the returned array at the contents of the last segment boundary: the launch over the program's eight
    segments, the last thread state read against the final state, the result read where the arguments are. -/
theorem run : θ_run defs (onTc (τ := τ) (main (F := F))) ⟨m, fun _ => 0, ρ⟩ (fun r => ∀ c : Dev nD,
      r.2.mem ((c.tc : Thread nD τ).loc main_v35) = W8 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v35 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.RunValue

end
-- ==== Proof.KernelStages.lean ====
/-
  What each of the three row-blocked dense stages of the program leaves in its output array.

  Each stage runs over a one-axis grid of 20 points; point t reads rows 5000·t … 5000·t + 4999 of its
  row-blocked operands (and the whole of its weight matrix and bias row) and writes the same rows of its result.
  Every stage is ROW-LOCAL: row r of the result depends on row r of the row-blocked operands only. So what point t
  writes is rows 5000·t … of the stage applied to the WHOLE operands, the 20 blocks tile the 100000 rows, and the
  result array ends holding the stage of the whole operands as the stage was entered.
-/
import proofs.«127769_j32942399160959_2_alg».proof.Proof.Gen.KernelIdeal.Frame
import proofs.«127769_j32942399160959_2_alg».proof.Proof.Spec
import Idealize.ShloMosaic.Lib.Pipeline.Value

set_option maxRecDepth 16384

noncomputable section

namespace Cert.KernelIdeal.Stages

open Cert.KernelIdeal Cert.KernelIdeal.Gen Idealize.ShloMosaic Idealize.ShloMosaic.TcCoe Idealize.ShloMosaic.Pipeline
open Idealize.ShloMosaic.ValueIdx Cert.LayoutLib Cert.DenseLib Cert.Gcn

/-! ## The vector unit's spelling of a row scaling -/

/-- An array times a one-column array broadcast along the rows is the array with every row scaled. -/
theorem mulf_col_eq_scaleRows {M C : ℕ} (X : FVec Ideal ⟨2, ![M, C]⟩ .f32) (d : FVec Ideal ⟨2, ![M, 1]⟩ .f32)
    (h : (⟨2, ![M, 1]⟩ : Shape).Broadcasts ⟨2, ![M, C]⟩) :
    mulf X (broadcastTo ⟨2, ![M, C]⟩ d h) = scaleRows X d := by
  funext i
  obtain ⟨p, q, rfl⟩ : ∃ (p : Fin M) (q : Fin C), i = ix2 p q := ⟨i 0, i 1, eq_ix2 i⟩
  show X (ix2 p q) * broadcastTo ⟨2, ![M, C]⟩ d h (ix2 p q) = X (ix2 p q) * d (ix2 p (0 : Fin 1))
  rw [broadcastTo_col_apply]

/-- A one-row array broadcast down the rows is the row laid along every row. -/
theorem broadcastTo_eq_rowsOf {M C : ℕ} (b : FVec Ideal ⟨2, ![1, C]⟩ .f32) (h : (⟨2, ![1, C]⟩ : Shape).Broadcasts ⟨2, ![M, C]⟩) :
    broadcastTo ⟨2, ![M, C]⟩ b h = rowsOf (M := M) b :=
  broadcastTo_eq_rows b h

theorem hz : (![0, 0] : Fin 2 → Nat) = fun _ => 0 := funext fun a => by fin_cases a <;> rfl

/-! ## The bodies' arithmetic, each as one stage of its loaded blocks -/

/-- The last stage's body: the sums scaled row by row, the bias row added. -/
theorem pay2_eq (v0 : Vec Ideal S5000x16 .f32) (v2 : Vec Ideal S5000x1 .f32) (v6 : Vec Ideal S1x16 .f32) :
    k2_pay1 (F := Ideal) v0 v2 v6 = stage2 v0 v2 v6 := by
  unfold k2_pay1
  simp only [shapeCast_self]
  refine (congrArg₂ addf (mulf_col_eq_scaleRows v0 v2 _) (broadcastTo_eq_rowsOf v6 _)).trans ?_
  rfl

/-- The first stage's body: the product with the first weights, every row scaled. -/
theorem pay0_eq (v0 : Vec Ideal S5000x128 .f32) (v2 : Vec Ideal S128x64 .f32) (v5 : Vec Ideal S5000x1 .f32) :
    k0_pay1 (F := Ideal) v0 v2 v5 = stage0 v0 v2 v5 := by
  unfold k0_pay1
  simp only [shapeCast_self]
  refine (congrArg₂ mulf (matmul_eq_mm dot_S5000x128_S128x64_S5000x64_1_0_0_1_n_n rfl (truncf .bf16 v0 bitsLt_bf16_f32) (truncf .bf16 v2 bitsLt_bf16_f32)) rfl).trans ?_
  exact mulf_col_eq_scaleRows (mm v0 v2) v5 _

/-! ## What each body leaves in its output block -/

theorem out2_eq (x0 : Vec Ideal S5000x16 .f32) (x1 : Vec Ideal S5000x1 .f32) (x2 : Vec Ideal S1x16 .f32) :
    out2_3 (F := Ideal) x0 x1 x2 = stage2 x0 x1 x2 := by
  unfold out2_3
  rw [View.canon_unit_zero hz]
  simp only [View.ld_unit_zero (S := S5000x16) hz, View.ld_unit_zero (S := S5000x1) hz, View.ld_unit_zero (S := S1x16) hz]
  exact pay2_eq x0 x1 x2

theorem out0_eq (x0 : Vec Ideal S5000x128 .f32) (x1 : Vec Ideal S128x64 .f32) (x2 : Vec Ideal S5000x1 .f32) :
    out0_3 (F := Ideal) x0 x1 x2 = stage0 x0 x1 x2 := by
  unfold out0_3
  rw [View.canon_unit_zero hz]
  simp only [View.ld_unit_zero (S := S5000x128) hz, View.ld_unit_zero (S := S128x64) hz, View.ld_unit_zero (S := S5000x1) hz]
  exact pay0_eq x0 x1 x2

/-! ## Every stage is row-local

Row `r` of a stage's result depends on row `r` of its row-blocked operands only (and on the whole weight matrix and bias
row). Stated for two sets of operands of any heights `M'` and `M` and a map `e` saying which row of the second set each row
of the first is. -/

theorem stage2_rows {M M' : ℕ} (A : (⟨2, ![M, 16]⟩ : Shape).Idx → EReal) (d : (⟨2, ![M, 1]⟩ : Shape).Idx → EReal)
    (b : (⟨2, ![1, 16]⟩ : Shape).Idx → EReal)
    (A' : (⟨2, ![M', 16]⟩ : Shape).Idx → EReal) (d' : (⟨2, ![M', 1]⟩ : Shape).Idx → EReal)
    (b' : (⟨2, ![1, 16]⟩ : Shape).Idx → EReal) (e : Fin M' → Fin M)
    (hA : ∀ r k, A' (ix2 r k) = A (ix2 (e r) k)) (hd : ∀ r, d' (ix2 r (0 : Fin 1)) = d (ix2 (e r) (0 : Fin 1)))
    (hb : ∀ k, b' (ix2 (0 : Fin 1) k) = b (ix2 (0 : Fin 1) k)) (r : Fin M') (q : Fin 16) :
    stage2 A' d' b' (ix2 r q) = stage2 A d b (ix2 (e r) q) := by
  show A' (ix2 r q) * d' (ix2 r (0 : Fin 1)) + b' (ix2 (0 : Fin 1) q) = A (ix2 (e r) q) * d (ix2 (e r) (0 : Fin 1)) + b (ix2 (0 : Fin 1) q)
  rw [hA r q, hd r, hb q]

theorem stage0_rows {M M' : ℕ} (X : (⟨2, ![M, 128]⟩ : Shape).Idx → EReal) (W : (⟨2, ![128, 64]⟩ : Shape).Idx → EReal)
    (d : (⟨2, ![M, 1]⟩ : Shape).Idx → EReal)
    (X' : (⟨2, ![M', 128]⟩ : Shape).Idx → EReal) (W' : (⟨2, ![128, 64]⟩ : Shape).Idx → EReal)
    (d' : (⟨2, ![M', 1]⟩ : Shape).Idx → EReal) (e : Fin M' → Fin M)
    (hX : ∀ r k, X' (ix2 r k) = X (ix2 (e r) k)) (hW : ∀ k q, W' (ix2 k q) = W (ix2 k q))
    (hd : ∀ r, d' (ix2 r (0 : Fin 1)) = d (ix2 (e r) (0 : Fin 1))) (r : Fin M') (q : Fin 64) :
    stage0 X' W' d' (ix2 r q) = stage0 X W d (ix2 (e r) q) := by
  show mm X' W' (ix2 r q) * d' (ix2 r (0 : Fin 1)) = mm X W (ix2 (e r) q) * d (ix2 (e r) (0 : Fin 1))
  rw [mm_apply, mm_apply, hd r]
  exact congrArg (· * d (ix2 (e r) (0 : Fin 1))) (Finset.sum_congr rfl fun k _ => by rw [hX r k, hW k q])

/-! # The last stage (region 2) -/

section Region2
variable (V : (c : Dev nD) → (b : Ref sig .tc) → Buf (Elt Ideal) ((c : Thread nD τ).loc b))

/-- The index maps over the grid: the row-blocked windows are at block `t` on the row axis, the bias row's window at block 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Which row of the array row `r` of point `t`'s block is. -/
def rowAt2 (t : Fin cfg2.N) (r : Fin 5000) : Fin 100000 :=
  ⟨t.val * 5000 + r.val, by have := t.isLt; have hN : cfg2.N = 20 := N_2; have := r.isLt; omega⟩

theorem iblk2_0_apply (c : Dev nD) (t : Fin cfg2.N) (r : Fin 5000) (k : Fin 16) :
    (iblk2 V c 0 t : S5000x16.Idx → EReal) (ix2 r k) = (V c (arrRef spec2 0) : S100000x16.Idx → EReal) (ix2 (rowAt2 t r) k) := by
  obtain ⟨e00, e01, -⟩ := idx_facts2 t
  show (V c (arrRef spec2 0) : S100000x16.Idx → EReal) (((cfg2.win 0).blk t).view.emb (ix2 r k)) = _
  refine congrArg _ (funext fun a => Fin.ext ?_)
  match a with
  | ⟨0, _⟩ => show win2_0.index t (0 : Fin 2) * 5000 + 1 * r.val = t.val * 5000 + r.val; rw [e00]; omega
  | ⟨1, _⟩ => show win2_0.index t (1 : Fin 2) * 16 + 1 * k.val = k.val; rw [e01]; omega

theorem iblk2_1_apply (c : Dev nD) (t : Fin cfg2.N) (r : Fin 5000) :
    (iblk2 V c 1 t : S5000x1.Idx → EReal) (ix2 r (0 : Fin 1)) = (V c (arrRef spec2 1) : S100000x1.Idx → EReal) (ix2 (rowAt2 t r) (0 : Fin 1)) := by
  obtain ⟨-, -, e10, e11, -⟩ := idx_facts2 t
  show (V c (arrRef spec2 1) : S100000x1.Idx → EReal) (((cfg2.win 1).blk t).view.emb (ix2 r (0 : Fin 1))) = _
  refine congrArg _ (funext fun a => Fin.ext ?_)
  match a with
  | ⟨0, _⟩ => show win2_1.index t (0 : Fin 2) * 5000 + 1 * r.val = t.val * 5000 + r.val; rw [e10]; omega
  | ⟨1, _⟩ => show win2_1.index t (1 : Fin 2) * 1 + 1 * 0 = 0; rw [e11]

theorem iblk2_2_apply (c : Dev nD) (t : Fin cfg2.N) (k : Fin 16) :
    (iblk2 V c 2 t : S1x16.Idx → EReal) (ix2 (0 : Fin 1) k) = (V c (arrRef spec2 2) : S1x16.Idx → EReal) (ix2 (0 : Fin 1) k) := by
  obtain ⟨-, -, -, -, e20, e21, -⟩ := idx_facts2 t
  show (V c (arrRef spec2 2) : S1x16.Idx → EReal) (((cfg2.win 2).blk t).view.emb (ix2 (0 : Fin 1) k)) = _
  refine congrArg _ (funext fun a => Fin.ext ?_)
  match a with
  | ⟨0, _⟩ => show win2_2.index t (0 : Fin 2) * 1 + 1 * 0 = 0; rw [e20]
  | ⟨1, _⟩ => show win2_2.index t (1 : Fin 2) * 16 + 1 * k.val = k.val; rw [e21]; omega

/-- WHAT POINT `t` WRITES BACK is rows 5000·t … of the last stage of the whole operands as the region finds them. -/
theorem flushed2_eq (c : Dev nD) (t : Fin cfg2.N) :
    (dat2 (F := Ideal) V c).flushed 3 t = ((cfg2.win 3).blk t).view.read (Elt Ideal)
      (stage2 (V c (arrRef spec2 0)) (V c (arrRef spec2 1)) (V c (arrRef spec2 2))) := by
  show (cfg2.win 3).cut (grid2.coords t) ((dat2 V c).after 3 t) = _
  rw [after2_3, out2_eq]
  obtain ⟨-, -, -, -, -, -, e30, e31⟩ := idx_facts2 t
  funext j
  have hj0 : (j 0).val < 5000 := (j 0).isLt
  have hj1 : (j 1).val < 16 := (j 1).isLt
  have key := stage2_rows (V c (arrRef spec2 0)) (V c (arrRef spec2 1)) (V c (arrRef spec2 2))
    (iblk2 V c 0 t) (iblk2 V c 1 t) (iblk2 V c 2 t) (rowAt2 t)
    (iblk2_0_apply V c t) (iblk2_1_apply V c t) (iblk2_2_apply V c t) ⟨(j 0).val, hj0⟩ ⟨(j 1).val, hj1⟩
  have hl : (cfg2.win 3).xinj (grid2.coords t) j = (ix2 (⟨(j 0).val, hj0⟩ : Fin 5000) (⟨(j 1).val, hj1⟩ : Fin 16) : S5000x16.Idx) :=
    funext fun a => by match a with | ⟨0, _⟩ => rfl | ⟨1, _⟩ => rfl
  have hr : ((cfg2.win 3).blk t).view.emb j = (ix2 (rowAt2 t ⟨(j 0).val, hj0⟩) (⟨(j 1).val, hj1⟩ : Fin 16) : S100000x16.Idx) :=
    funext fun a => Fin.ext (by
      match a with
      | ⟨0, _⟩ => show win2_3.index t (0 : Fin 2) * 5000 + 1 * (j 0).val = t.val * 5000 + (j 0).val; rw [e30]; omega
      | ⟨1, _⟩ => show win2_3.index t (1 : Fin 2) * 16 + 1 * (j 1).val = (j 1).val; rw [e31]; omega)
  show stage2 (iblk2 V c 0 t) (iblk2 V c 1 t) (iblk2 V c 2 t) ((cfg2.win 3).xinj (grid2.coords t) j)
    = stage2 (V c (arrRef spec2 0)) (V c (arrRef spec2 1)) (V c (arrRef spec2 2)) (((cfg2.win 3).blk t).view.emb j)
  rw [hl, hr]
  exact key

/-- An index of the array is in point `t`'s block iff each coordinate is in the block's range on its axis. -/
theorem mem_blk2 (t : Fin cfg2.N) (i : S100000x16.Idx) :
    i ∈ ((cfg2.win 3).blk t).view.set ↔ ∀ a : Fin 2, win2_3.index t a * S5000x16.size a ≤ (i a).val ∧ (i a).val < win2_3.index t a * S5000x16.size a + S5000x16.size a := by
  show i ∈ ((View.whole main_v35).slice (win2_3.rect t)).set ↔ _
  rw [View.set_slice_whole, Rect.mem_set_unit]
  exact Iff.rfl

/-- Every row is in some point's block: row `r` in point `r / 5000`'s. -/
theorem cover2 (i : S100000x16.Idx) : ∃ t : Fin cfg2.N, (cfg2.win 3).flush t = true ∧ i ∈ ((cfg2.win 3).blk t).view.set := by
  have hN : cfg2.N = 20 := N_2
  have hi0 : (i 0).val < 100000 := (i 0).isLt
  have hi1 : (i 1).val < 16 := (i 1).isLt
  let t : Fin cfg2.N := ⟨(i 0).val / 5000, by omega⟩
  obtain ⟨-, -, -, -, -, -, e30, e31⟩ := idx_facts2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    rw [e30]; show (i 0).val / 5000 * 5000 ≤ (i 0).val ∧ (i 0).val < (i 0).val / 5000 * 5000 + 5000; omega
  | ⟨1, _⟩ =>
    show win2_3.index t (1 : Fin 2) * 16 ≤ (i 1).val ∧ (i 1).val < win2_3.index t (1 : Fin 2) * 16 + 16
    rw [e31]; omega

/-- THE RESULT ARRAY after the region: the last stage of the whole operands as the region was entered. -/
theorem final2 (c : Dev nD) : (dat2 (F := Ideal) V c).arrAt 3 cfg2.N
    = stage2 (V c (arrRef spec2 0)) (V c (arrRef spec2 1)) (V c (arrRef spec2 2)) :=
  (dat2 (F := Ideal) V c).arrAt_eq_of_cover 3 _ (fun t _ => flushed2_eq V c t) cover2

end Region2

/-! # The first stage (region 0) -/

section Region0
variable (V : (c : Dev nD) → (b : Ref sig .tc) → Buf (Elt Ideal) ((c : Thread nD τ).loc b))

/-- The index maps over the grid: the row-blocked windows are at block `t` on the row axis, the weights' window at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Which row of the array row `r` of point `t`'s block is. -/
def rowAt0 (t : Fin cfg0.N) (r : Fin 5000) : Fin 100000 :=
  ⟨t.val * 5000 + r.val, by have := t.isLt; have hN : cfg0.N = 20 := N_0; have := r.isLt; omega⟩

theorem iblk0_0_apply (c : Dev nD) (t : Fin cfg0.N) (r : Fin 5000) (k : Fin 128) :
    (iblk0 V c 0 t : S5000x128.Idx → EReal) (ix2 r k) = (V c (arrRef spec0 0) : S100000x128.Idx → EReal) (ix2 (rowAt0 t r) k) := by
  obtain ⟨e00, e01, -⟩ := idx_facts0 t
  show (V c (arrRef spec0 0) : S100000x128.Idx → EReal) (((cfg0.win 0).blk t).view.emb (ix2 r k)) = _
  refine congrArg _ (funext fun a => Fin.ext ?_)
  match a with
  | ⟨0, _⟩ => show win0_0.index t (0 : Fin 2) * 5000 + 1 * r.val = t.val * 5000 + r.val; rw [e00]; omega
  | ⟨1, _⟩ => show win0_0.index t (1 : Fin 2) * 128 + 1 * k.val = k.val; rw [e01]; omega

theorem iblk0_1_apply (c : Dev nD) (t : Fin cfg0.N) (k : Fin 128) (q : Fin 64) :
    (iblk0 V c 1 t : S128x64.Idx → EReal) (ix2 k q) = (V c (arrRef spec0 1) : S128x64.Idx → EReal) (ix2 k q) := by
  obtain ⟨-, -, e10, e11, -⟩ := idx_facts0 t
  show (V c (arrRef spec0 1) : S128x64.Idx → EReal) (((cfg0.win 1).blk t).view.emb (ix2 k q)) = _
  refine congrArg _ (funext fun a => Fin.ext ?_)
  match a with
  | ⟨0, _⟩ => show win0_1.index t (0 : Fin 2) * 128 + 1 * k.val = k.val; rw [e10]; omega
  | ⟨1, _⟩ => show win0_1.index t (1 : Fin 2) * 64 + 1 * q.val = q.val; rw [e11]; omega

theorem iblk0_2_apply (c : Dev nD) (t : Fin cfg0.N) (r : Fin 5000) :
    (iblk0 V c 2 t : S5000x1.Idx → EReal) (ix2 r (0 : Fin 1)) = (V c (arrRef spec0 2) : S100000x1.Idx → EReal) (ix2 (rowAt0 t r) (0 : Fin 1)) := by
  obtain ⟨-, -, -, -, e20, e21, -⟩ := idx_facts0 t
  show (V c (arrRef spec0 2) : S100000x1.Idx → EReal) (((cfg0.win 2).blk t).view.emb (ix2 r (0 : Fin 1))) = _
  refine congrArg _ (funext fun a => Fin.ext ?_)
  match a with
  | ⟨0, _⟩ => show win0_2.index t (0 : Fin 2) * 5000 + 1 * r.val = t.val * 5000 + r.val; rw [e20]; omega
  | ⟨1, _⟩ => show win0_2.index t (1 : Fin 2) * 1 + 1 * 0 = 0; rw [e21]

/-- WHAT POINT `t` WRITES BACK is rows 5000·t … of the first stage of the whole operands as the region finds them. -/
theorem flushed0_eq (c : Dev nD) (t : Fin cfg0.N) :
    (dat0 (F := Ideal) V c).flushed 3 t = ((cfg0.win 3).blk t).view.read (Elt Ideal)
      (stage0 (V c (arrRef spec0 0)) (V c (arrRef spec0 1)) (V c (arrRef spec0 2))) := by
  show (cfg0.win 3).cut (grid0.coords t) ((dat0 V c).after 3 t) = _
  rw [after0_3, out0_eq]
  obtain ⟨-, -, -, -, -, -, e30, e31⟩ := idx_facts0 t
  funext j
  have hj0 : (j 0).val < 5000 := (j 0).isLt
  have hj1 : (j 1).val < 64 := (j 1).isLt
  have key := stage0_rows (V c (arrRef spec0 0)) (V c (arrRef spec0 1)) (V c (arrRef spec0 2))
    (iblk0 V c 0 t) (iblk0 V c 1 t) (iblk0 V c 2 t) (rowAt0 t)
    (iblk0_0_apply V c t) (iblk0_1_apply V c t) (iblk0_2_apply V c t) ⟨(j 0).val, hj0⟩ ⟨(j 1).val, hj1⟩
  have hl : (cfg0.win 3).xinj (grid0.coords t) j = (ix2 (⟨(j 0).val, hj0⟩ : Fin 5000) (⟨(j 1).val, hj1⟩ : Fin 64) : S5000x64.Idx) :=
    funext fun a => by match a with | ⟨0, _⟩ => rfl | ⟨1, _⟩ => rfl
  have hr : ((cfg0.win 3).blk t).view.emb j = (ix2 (rowAt0 t ⟨(j 0).val, hj0⟩) (⟨(j 1).val, hj1⟩ : Fin 64) : S100000x64.Idx) :=
    funext fun a => Fin.ext (by
      match a with
      | ⟨0, _⟩ => show win0_3.index t (0 : Fin 2) * 5000 + 1 * (j 0).val = t.val * 5000 + (j 0).val; rw [e30]; omega
      | ⟨1, _⟩ => show win0_3.index t (1 : Fin 2) * 64 + 1 * (j 1).val = (j 1).val; rw [e31]; omega)
  show stage0 (iblk0 V c 0 t) (iblk0 V c 1 t) (iblk0 V c 2 t) ((cfg0.win 3).xinj (grid0.coords t) j)
    = stage0 (V c (arrRef spec0 0)) (V c (arrRef spec0 1)) (V c (arrRef spec0 2)) (((cfg0.win 3).blk t).view.emb j)
  rw [hl, hr]
  exact key

/-- An index of the array is in point `t`'s block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v13).slice (win0_3.rect t)).set ↔ _
  rw [View.set_slice_whole, Rect.mem_set_unit]
  exact Iff.rfl

/-- Every row is in some point's block: row `r` in point `r / 5000`'s. -/
theorem cover0 (i : S100000x64.Idx) : ∃ t : Fin cfg0.N, (cfg0.win 3).flush t = true ∧ i ∈ ((cfg0.win 3).blk t).view.set := by
  have hN : cfg0.N = 20 := N_0
  have hi0 : (i 0).val < 100000 := (i 0).isLt
  have hi1 : (i 1).val < 64 := (i 1).isLt
  let t : Fin cfg0.N := ⟨(i 0).val / 5000, by omega⟩
  obtain ⟨-, -, -, -, -, -, e30, e31⟩ := idx_facts0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    rw [e30]; show (i 0).val / 5000 * 5000 ≤ (i 0).val ∧ (i 0).val < (i 0).val / 5000 * 5000 + 5000; omega
  | ⟨1, _⟩ =>
    show win0_3.index t (1 : Fin 2) * 64 ≤ (i 1).val ∧ (i 1).val < win0_3.index t (1 : Fin 2) * 64 + 64
    rw [e31]; omega

/-- THE RESULT ARRAY after the region: the first stage of the whole operands as the region was entered. -/
theorem final0 (c : Dev nD) : (dat0 (F := Ideal) V c).arrAt 3 cfg0.N
    = stage0 (V c (arrRef spec0 0)) (V c (arrRef spec0 1)) (V c (arrRef spec0 2)) :=
  (dat0 (F := Ideal) V c).arrAt_eq_of_cover 3 _ (fun t _ => flushed0_eq V c t) cover0

end Region0

end Cert.KernelIdeal.Stages

end
-- ==== Proof.KernelStage1.lean ====
/-
  What the middle row-blocked dense stage of the program leaves in its output array.

  The stage runs over a one-axis grid of 20 points; point t reads rows 5000·t … 5000·t + 4999 of the first layer's
  sums and of the column of node factors, the whole bias row and the whole second weight matrix, and writes the same
  rows of its result: the sums scaled row by row, the bias added, cut at zero, multiplied by the weights, and scaled
  row by row again. The stage is ROW-LOCAL: row r of the result depends on row r of the two row-blocked operands
  only. So what point t writes is rows 5000·t … of the stage applied to the WHOLE operands, the 20 blocks tile the
  100000 rows, and the result array ends holding the stage of the whole operands as the stage was entered.
-/
import proofs.«127769_j32942399160959_2_alg».proof.Proof.Gen.KernelIdeal.Frame
import proofs.«127769_j32942399160959_2_alg».proof.Proof.Spec
import Idealize.ShloMosaic.Lib.Pipeline.Value

set_option maxRecDepth 16384

noncomputable section

namespace Cert.KernelIdeal.Stage1

open Cert.KernelIdeal Cert.KernelIdeal.Gen Idealize.ShloMosaic Idealize.ShloMosaic.TcCoe Idealize.ShloMosaic.Pipeline
open Idealize.ShloMosaic.ValueIdx Cert.LayoutLib Cert.DenseLib Cert.Gcn

/-! ## The vector unit's spelling of a row scaling and of a bias row -/

/-- An array times a one-column array broadcast along the rows is the array with every row scaled. -/
theorem mulf_col_eq_scaleRows {M C : ℕ} (X : FVec Ideal ⟨2, ![M, C]⟩ .f32) (d : FVec Ideal ⟨2, ![M, 1]⟩ .f32)
    (h : (⟨2, ![M, 1]⟩ : Shape).Broadcasts ⟨2, ![M, C]⟩) :
    mulf X (broadcastTo ⟨2, ![M, C]⟩ d h) = scaleRows X d := by
  funext i
  obtain ⟨p, q, rfl⟩ : ∃ (p : Fin M) (q : Fin C), i = ix2 p q := ⟨i 0, i 1, eq_ix2 i⟩
  show X (ix2 p q) * broadcastTo ⟨2, ![M, C]⟩ d h (ix2 p q) = X (ix2 p q) * d (ix2 p (0 : Fin 1))
  rw [broadcastTo_col_apply]

/-- A one-row array broadcast down the rows is the row laid along every row. -/
theorem broadcastTo_eq_rowsOf {M C : ℕ} (b : FVec Ideal ⟨2, ![1, C]⟩ .f32) (h : (⟨2, ![1, C]⟩ : Shape).Broadcasts ⟨2, ![M, C]⟩) :
    broadcastTo ⟨2, ![M, C]⟩ b h = rowsOf (M := M) b :=
  broadcastTo_eq_rows b h

theorem hz : (![0, 0] : Fin 2 → Nat) = fun _ => 0 := funext fun a => by fin_cases a <;> rfl

/-! ## The body's arithmetic as one stage of its loaded blocks -/

/-- The body: the sums scaled, the bias added, cut at zero, multiplied by the second weights, scaled. -/
theorem pay1_eq (v0 : Vec Ideal S5000x1 .f32) (v2 : Vec Ideal S5000x64 .f32) (v6 : Vec Ideal S1x64 .f32) (v13 : Vec Ideal S64x16 .f32) :
    k1_pay1 (F := Ideal) v0 v2 v6 v13 = stage1 v2 v0 v6 v13 := by
  unfold k1_pay1
  simp only [shapeCast_self]
  refine (congrArg₂ mulf ((matmul_eq_mm dot_S5000x64_S64x16_S5000x16_1_0_0_1_n_n rfl _ (truncf .bf16 v13 bitsLt_bf16_f32)).trans
    (congrArg (fun Z => mm Z v13) ((maximumf_splat_zero _).trans (congrArg relu
      (congrArg₂ addf (mulf_col_eq_scaleRows v2 v0 _) (broadcastTo_eq_rowsOf v6 _)))))) rfl).trans ?_
  exact mulf_col_eq_scaleRows _ v0 _

/-- What the body leaves in its output block, from the input blocks. -/
theorem out1_eq (x0 : Vec Ideal S5000x64 .f32) (x1 : Vec Ideal S5000x1 .f32) (x2 : Vec Ideal S1x64 .f32) (x3 : Vec Ideal S64x16 .f32) :
    out1_4 (F := Ideal) x0 x1 x2 x3 = stage1 x0 x1 x2 x3 := by
  unfold out1_4
  rw [View.canon_unit_zero hz]
  simp only [View.ld_unit_zero (S := S5000x64) hz, View.ld_unit_zero (S := S5000x1) hz, View.ld_unit_zero (S := S1x64) hz, View.ld_unit_zero (S := S64x16) hz]
  exact pay1_eq x1 x0 x2 x3

/-! ## The stage is row-local

Row `r` of the result depends on row `r` of the two row-blocked operands only (and on the whole bias row and weight
matrix). Stated for two sets of row-blocked operands of any heights `M'` and `M` and a map `e` saying which row of the
second set each row of the first is. -/

theorem stage1_rows {M M' : ℕ} (A : (⟨2, ![M, 64]⟩ : Shape).Idx → EReal) (d : (⟨2, ![M, 1]⟩ : Shape).Idx → EReal)
    (A' : (⟨2, ![M', 64]⟩ : Shape).Idx → EReal) (d' : (⟨2, ![M', 1]⟩ : Shape).Idx → EReal)
    (b : (⟨2, ![1, 64]⟩ : Shape).Idx → EReal) (W : (⟨2, ![64, 16]⟩ : Shape).Idx → EReal) (e : Fin M' → Fin M)
    (hA : ∀ r k, A' (ix2 r k) = A (ix2 (e r) k)) (hd : ∀ r, d' (ix2 r (0 : Fin 1)) = d (ix2 (e r) (0 : Fin 1)))
    (r : Fin M') (q : Fin 16) :
    stage1 A' d' b W (ix2 r q) = stage1 A d b W (ix2 (e r) q) := by
  show mm (relu (plus (scaleRows A' d') (rowsOf b))) W (ix2 r q) * d' (ix2 r (0 : Fin 1))
    = mm (relu (plus (scaleRows A d) (rowsOf b))) W (ix2 (e r) q) * d (ix2 (e r) (0 : Fin 1))
  rw [hd r]
  refine congrArg (· * d (ix2 (e r) (0 : Fin 1))) ?_
  refine mm_row _ _ W r (e r) (fun k => ?_) q
  show max (A' (ix2 r k) * d' (ix2 r (0 : Fin 1)) + b (ix2 (0 : Fin 1) k)) 0
    = max (A (ix2 (e r) k) * d (ix2 (e r) (0 : Fin 1)) + b (ix2 (0 : Fin 1) k)) 0
  rw [hA r k, hd r]

/-! ## The grid -/

/-- The index maps over the grid: the row-blocked windows are at block `t` on the row axis, the bias row's and the
    weight matrix's windows at block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Which row of the array row `r` of point `t`'s block is. -/
def rowAt1 (t : Fin cfg1.N) (r : Fin 5000) : Fin 100000 :=
  ⟨t.val * 5000 + r.val, by have := t.isLt; have hN : cfg1.N = 20 := N_1; have := r.isLt; omega⟩

/-! # The region -/

section Region1
variable (V : (c : Dev nD) → (b : Ref sig .tc) → Buf (Elt Ideal) ((c : Thread nD τ).loc b))

/-- Row `r` of point `t`'s block of the sums is row `5000·t + r` of the array. -/
theorem iblk1_0_apply (c : Dev nD) (t : Fin cfg1.N) (r : Fin 5000) (k : Fin 64) :
    (iblk1 V c 0 t : S5000x64.Idx → EReal) (ix2 r k) = (V c (arrRef spec1 0) : S100000x64.Idx → EReal) (ix2 (rowAt1 t r) k) := by
  obtain ⟨e00, e01, -⟩ := idx_facts1 t
  show (V c (arrRef spec1 0) : S100000x64.Idx → EReal) (((cfg1.win 0).blk t).view.emb (ix2 r k)) = _
  refine congrArg _ (funext fun a => Fin.ext ?_)
  match a with
  | ⟨0, _⟩ => show win1_0.index t (0 : Fin 2) * 5000 + 1 * r.val = t.val * 5000 + r.val; rw [e00]; omega
  | ⟨1, _⟩ => show win1_0.index t (1 : Fin 2) * 64 + 1 * k.val = k.val; rw [e01]; omega

/-- Row `r` of point `t`'s block of the factor column is row `5000·t + r` of the array. -/
theorem iblk1_1_apply (c : Dev nD) (t : Fin cfg1.N) (r : Fin 5000) :
    (iblk1 V c 1 t : S5000x1.Idx → EReal) (ix2 r (0 : Fin 1)) = (V c (arrRef spec1 1) : S100000x1.Idx → EReal) (ix2 (rowAt1 t r) (0 : Fin 1)) := by
  obtain ⟨-, -, e10, e11, -⟩ := idx_facts1 t
  show (V c (arrRef spec1 1) : S100000x1.Idx → EReal) (((cfg1.win 1).blk t).view.emb (ix2 r (0 : Fin 1))) = _
  refine congrArg _ (funext fun a => Fin.ext ?_)
  match a with
  | ⟨0, _⟩ => show win1_1.index t (0 : Fin 2) * 5000 + 1 * r.val = t.val * 5000 + r.val; rw [e10]; omega
  | ⟨1, _⟩ => show win1_1.index t (1 : Fin 2) * 1 + 1 * (0 : Fin 1).val = (0 : Fin 1).val; rw [e11]; rfl

/-- Every point's block of the bias row is the whole row. -/
theorem iblk1_2_eq (c : Dev nD) (t : Fin cfg1.N) :
    (iblk1 V c 2 t : S1x64.Idx → EReal) = (V c (arrRef spec1 2) : S1x64.Idx → EReal) := by
  obtain ⟨-, -, -, -, e20, e21, -⟩ := idx_facts1 t
  funext j
  show (V c (arrRef spec1 2) : S1x64.Idx → EReal) (((cfg1.win 2).blk t).view.emb j) = _
  refine congrArg _ (funext fun a => Fin.ext ?_)
  match a with
  | ⟨0, _⟩ => show win1_2.index t (0 : Fin 2) * 1 + 1 * (j 0).val = (j 0).val; rw [e20]; omega
  | ⟨1, _⟩ => show win1_2.index t (1 : Fin 2) * 64 + 1 * (j 1).val = (j 1).val; rw [e21]; omega

/-- Every point's block of the second weight matrix is the whole matrix. -/
theorem iblk1_3_eq (c : Dev nD) (t : Fin cfg1.N) :
    (iblk1 V c 3 t : S64x16.Idx → EReal) = (V c (arrRef spec1 3) : S64x16.Idx → EReal) := by
  obtain ⟨-, -, -, -, -, -, e30, e31, -⟩ := idx_facts1 t
  funext j
  show (V c (arrRef spec1 3) : S64x16.Idx → EReal) (((cfg1.win 3).blk t).view.emb j) = _
  refine congrArg _ (funext fun a => Fin.ext ?_)
  match a with
  | ⟨0, _⟩ => show win1_3.index t (0 : Fin 2) * 64 + 1 * (j 0).val = (j 0).val; rw [e30]; omega
  | ⟨1, _⟩ => show win1_3.index t (1 : Fin 2) * 16 + 1 * (j 1).val = (j 1).val; rw [e31]; omega

/-- Where an element of point `t`'s output block sits in the output array. -/
theorem emb1_4 (t : Fin cfg1.N) (r : Fin 5000) (q : Fin 16) :
    (((cfg1.win 4).blk t).view.emb (ix2 r q) : S100000x16.Idx) = ix2 (rowAt1 t r) q := by
  obtain ⟨-, -, -, -, -, -, -, -, e40, e41⟩ := idx_facts1 t
  refine funext fun a => Fin.ext ?_
  match a with
  | ⟨0, _⟩ => show win1_4.index t (0 : Fin 2) * 5000 + 1 * r.val = t.val * 5000 + r.val; rw [e40]; omega
  | ⟨1, _⟩ => show win1_4.index t (1 : Fin 2) * 16 + 1 * q.val = q.val; rw [e41]; omega

/-- WHAT POINT `t` WRITES BACK is block `t` of the stage of the whole operands as the region finds them. -/
theorem flushed1_eq (c : Dev nD) (t : Fin cfg1.N) :
    (dat1 (F := Ideal) V c).flushed 4 t = ((cfg1.win 4).blk t).view.read (Elt Ideal)
      (stage1 (M := 100000) (V c (arrRef spec1 0)) (V c (arrRef spec1 1)) (V c (arrRef spec1 2)) (V c (arrRef spec1 3))) := by
  show (cfg1.win 4).cut (grid1.coords t) ((dat1 V c).after 4 t) = _
  rw [after1_4, out1_eq, iblk1_2_eq, iblk1_3_eq]
  funext j
  obtain ⟨r, q, rfl⟩ : ∃ (r : Fin 5000) (q : Fin 16), j = ix2 r q := ⟨j 0, j 1, eq_ix2 j⟩
  show stage1 (M := 5000) (iblk1 V c 0 t) (iblk1 V c 1 t) (V c (arrRef spec1 2)) (V c (arrRef spec1 3)) (ix2 r q)
    = stage1 (M := 100000) (V c (arrRef spec1 0)) (V c (arrRef spec1 1)) (V c (arrRef spec1 2)) (V c (arrRef spec1 3))
        (((cfg1.win 4).blk t).view.emb (ix2 r q))
  rw [emb1_4]
  exact stage1_rows _ _ _ _ _ _ (rowAt1 t) (iblk1_0_apply V c t) (iblk1_1_apply V c t) r q

/-- An index of the output array is in point `t`'s block iff each coordinate is in the block's range on its axis. -/
theorem mem_blk1 (t : Fin cfg1.N) (i : S100000x16.Idx) :
    i ∈ ((cfg1.win 4).blk t).view.set ↔ ∀ a : Fin 2, win1_4.index t a * S5000x16.size a ≤ (i a).val
      ∧ (i a).val < win1_4.index t a * S5000x16.size a + S5000x16.size a := by
  show i ∈ ((View.whole main_v24).slice (win1_4.rect t)).set ↔ _
  rw [View.set_slice_whole, Rect.mem_set_unit]
  exact Iff.rfl

/-- The 20 blocks tile the rows: row `n` is in the block of point `n / 5000`. -/
theorem cover1 (i : S100000x16.Idx) :
    ∃ t : Fin cfg1.N, (cfg1.win 4).flush t = true ∧ i ∈ ((cfg1.win 4).blk t).view.set := by
  have hN : cfg1.N = 20 := N_1
  have hi0 : (i 0).val < 100000 := (i 0).isLt
  have hi1 : (i 1).val < 16 := (i 1).isLt
  obtain ⟨t, ht⟩ : ∃ t : Fin cfg1.N, t.val = (i 0).val / 5000 := ⟨⟨(i 0).val / 5000, by omega⟩, rfl⟩
  obtain ⟨-, -, -, -, -, -, -, -, e40, e41⟩ := idx_facts1 t
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    rw [e40]; omega
  | ⟨1, _⟩ =>
    show win1_4.index t (1 : Fin 2) * 16 ≤ (i 1).val ∧ (i 1).val < win1_4.index t (1 : Fin 2) * 16 + 16
    rw [e41]; omega

/-- THE ARRAY after the region's run: the stage of the whole operands as the region was entered. -/
theorem final1 (c : Dev nD) : (dat1 (F := Ideal) V c).arrAt 4 cfg1.N
    = Cert.Gcn.stage1 (V c (Pipeline.arrRef spec1 0)) (V c (Pipeline.arrRef spec1 1)) (V c (Pipeline.arrRef spec1 2)) (V c (Pipeline.arrRef spec1 3)) :=
  (dat1 (F := Ideal) V c).arrAt_eq_of_cover 4 _ (fun t _ => flushed1_eq V c t) cover1

end Region1

end Cert.KernelIdeal.Stage1

end
-- ==== Proof.HostWalk.lean ====
/-
  Two host computations of the graph convolution, each as ONE function of whole arrays.

  The node factors: ones summed into the node each edge ends at give the degrees; the factor of a node is the
  inverse square root of its degree (at least one), or zero for a node no edge ends at; laid out as one column.

  The walk along the edges: the rows of a node array are gathered at the wrapped start indices of the edges
  (a negative index has the number of nodes added; the result is clamped into the table) and added, edge by
  edge, into a zero array at the node each edge ends at (an end index outside the table is dropped).
-/
import proofs.«127769_j32942399160959_2_alg».proof.Proof.Spec

noncomputable section

namespace Cert.Gcn

open Idealize.ShloMosaic Idealize.ShloMosaic.ValueIdx Cert.LayoutLib Cert.DenseLib Cert.RowsLib Cert.ScatterLib

/-- The wrapped start indices as one column, read at edge e. -/
theorem wrappedCol_apply
    (hbE : (⟨0, ![]⟩ : Shape).BroadcastsInDim ⟨1, ![1700000]⟩ (![] : Fin 0 → Fin 1))
    (hcol : (⟨1, ![1700000]⟩ : Shape).BroadcastsInDim ⟨2, ![1700000, 1]⟩ (![0] : Fin 1 → Fin 2))
    (src : IVec ⟨1, ![1700000]⟩ 32) (e : Fin 1700000) :
    broadcastInDim ⟨2, ![1700000, 1]⟩ ![0] hcol
        (select (cmpi .slt src (broadcastInDim ⟨1, ![1700000]⟩ ![] hbE (constantI ⟨0, ![]⟩ 32 0#32)))
          (addi src (broadcastInDim ⟨1, ![1700000]⟩ ![] hbE (constantI ⟨0, ![]⟩ 32 100000#32))) src)
        (ix2 e (0 : Fin 1))
      = wrapped (src (ix1 e)) := by
  rw [broadcastInDim_vecCol_apply]
  show Scalar.select (IntOp.cmpi .slt (src (ix1 e)) (broadcastInDim ⟨1, ![1700000]⟩ ![] hbE (constantI ⟨0, ![]⟩ 32 0#32) (ix1 e)))
      (IntOp.addi (src (ix1 e)) (broadcastInDim ⟨1, ![1700000]⟩ ![] hbE (constantI ⟨0, ![]⟩ 32 100000#32) (ix1 e))) (src (ix1 e)) = _
  rw [ValueIdx.broadcastInDim_scalar_apply, ValueIdx.broadcastInDim_scalar_apply]
  rfl

/-- THE WALK ALONG THE EDGES as one function: rows gathered at the wrapped start indices, summed into zeros at the
    end indices. -/
theorem edgeWalk_eq {C : ℕ}
    (wfG : GatherDims.WF ⟨2, ![100000, C]⟩ ⟨2, ![1700000, 1]⟩ ⟨2, ![1700000, C]⟩ [1] [0] [] [0] [] 1 ![1, C])
    (wfS : ScatterDims.WF ⟨2, ![100000, C]⟩ ⟨2, ![1700000, 1]⟩ ⟨2, ![1700000, C]⟩ [1] [0] [0] 1)
    (hb0 : (⟨0, ![]⟩ : Shape).BroadcastsInDim ⟨2, ![100000, C]⟩ (![] : Fin 0 → Fin 2))
    (hbE : (⟨0, ![]⟩ : Shape).BroadcastsInDim ⟨1, ![1700000]⟩ (![] : Fin 0 → Fin 1))
    (hcol : (⟨1, ![1700000]⟩ : Shape).BroadcastsInDim ⟨2, ![1700000, 1]⟩ (![0] : Fin 1 → Fin 2))
    (H : FVec Ideal ⟨2, ![100000, C]⟩ .f32) (src dst : IVec ⟨1, ![1700000]⟩ 32) :
    Ideal.hostScatterAdd (rowScatterDims 100000 C 1700000 wfS)
        (broadcastInDim ⟨2, ![100000, C]⟩ ![] hb0 (constant (F := Ideal) ⟨0, ![]⟩ .f32 0x00000000#32))
        (broadcastInDim ⟨2, ![1700000, 1]⟩ ![0] hcol dst)
        (Host.gather (rowGatherDims 100000 C 1700000 wfG) H
          (broadcastInDim ⟨2, ![1700000, 1]⟩ ![0] hcol
            (select (cmpi .slt src (broadcastInDim ⟨1, ![1700000]⟩ ![] hbE (constantI ⟨0, ![]⟩ 32 0#32)))
              (addi src (broadcastInDim ⟨1, ![1700000]⟩ ![] hbE (constantI ⟨0, ![]⟩ 32 100000#32))) src)))
      = sumInto (nodeOf dst) (takeRows (nodeRow src) H) := by
  funext i
  obtain ⟨n, k, rfl⟩ : ∃ (n : Fin 100000) (k : Fin C), i = ix2 n k := ⟨i 0, i 1, eq_ix2 i⟩
  refine (scatterAdd_rows_apply wfS _ _ _ n k).trans ?_
  have hz : broadcastInDim ⟨2, ![100000, C]⟩ ![] hb0 (constant (F := Ideal) ⟨0, ![]⟩ .f32 0x00000000#32) (ix2 n k) = 0 := by
    rw [ValueIdx.broadcastInDim_scalar_apply]
    exact Ideal.ofBits_zero_f32
  rw [hz]
  unfold sumInto
  refine congrArg ((0 : EReal) + ·) ?_
  refine Finset.sum_congr (Finset.filter_congr fun r _ => ?_) fun r _ => ?_
  · rw [broadcastInDim_vecCol_apply]; rfl
  · rw [gather_rows_apply (by norm_num : 0 < 100000), wrappedCol_apply]
    rfl

/-- The degrees: ones summed into zeros at the end indices. -/
theorem deg_apply
    (wfS : ScatterDims.WF ⟨1, ![100000]⟩ ⟨2, ![1700000, 1]⟩ ⟨1, ![1700000]⟩ [] [0] [0] 1)
    (hbN : (⟨0, ![]⟩ : Shape).BroadcastsInDim ⟨1, ![100000]⟩ (![] : Fin 0 → Fin 1))
    (hbE : (⟨0, ![]⟩ : Shape).BroadcastsInDim ⟨1, ![1700000]⟩ (![] : Fin 0 → Fin 1))
    (hcol : (⟨1, ![1700000]⟩ : Shape).BroadcastsInDim ⟨2, ![1700000, 1]⟩ (![0] : Fin 1 → Fin 2))
    (dst : IVec ⟨1, ![1700000]⟩ 32) (n : Fin 100000) :
    Ideal.hostScatterAdd (vecScatterDims 100000 1700000 wfS)
        (broadcastInDim ⟨1, ![100000]⟩ ![] hbN (constant (F := Ideal) ⟨0, ![]⟩ .f32 0x00000000#32))
        (broadcastInDim ⟨2, ![1700000, 1]⟩ ![0] hcol dst)
        (broadcastInDim ⟨1, ![1700000]⟩ ![] hbE (constant (F := Ideal) ⟨0, ![]⟩ .f32 0x3F800000#32)) (ix1 n)
      = degAt dst n := by
  refine (scatterAdd_vec_apply wfS _ _ _ n).trans ?_
  have h1 : broadcastInDim ⟨1, ![100000]⟩ ![] hbN (constant (F := Ideal) ⟨0, ![]⟩ .f32 0x00000000#32) (ix1 n)
      = Ideal.ofBits .f32 0x00000000#32 := by
    rw [ValueIdx.broadcastInDim_scalar_apply]; rfl
  have h0 : ∀ r : Fin 1700000, broadcastInDim ⟨1, ![1700000]⟩ ![] hbE (constant (F := Ideal) ⟨0, ![]⟩ .f32 0x3F800000#32) (ix1 r)
      = Ideal.ofBits .f32 0x3F800000#32 := fun r => by
    rw [ValueIdx.broadcastInDim_scalar_apply]; rfl
  rw [h1]
  unfold degAt
  refine congrArg (Ideal.ofBits .f32 0x00000000#32 + ·) ?_
  refine Finset.sum_congr (Finset.filter_congr fun r _ => ?_) fun r _ => h0 r
  rw [broadcastInDim_vecCol_apply]; rfl

/-- THE NODE FACTORS as one column: the selected inverse square root of the degrees, cast to a column. -/
theorem facCol_eq
    (hbN : (⟨0, ![]⟩ : Shape).BroadcastsInDim ⟨1, ![100000]⟩ (![] : Fin 0 → Fin 1))
    (hcast : (⟨1, ![100000]⟩ : Shape).ShapeCasts ⟨2, ![100000, 1]⟩)
    (dst : IVec ⟨1, ![1700000]⟩ 32) (deg : FVec Ideal ⟨1, ![100000]⟩ .f32)
    (hdeg : ∀ n : Fin 100000, deg (ix1 n) = degAt dst n) :
    shapeCast ⟨2, ![100000, 1]⟩
        (select
          (cmpf (F := Ideal) .ogt deg
            (broadcastInDim ⟨1, ![100000]⟩ ![] hbN (constant (F := Ideal) ⟨0, ![]⟩ .f32 0x00000000#32)))
          (Host.rsqrt (F := Ideal)
            (maximumf deg (broadcastInDim ⟨1, ![100000]⟩ ![] hbN (constant (F := Ideal) ⟨0, ![]⟩ .f32 0x3F800000#32))))
          (broadcastInDim ⟨1, ![100000]⟩ ![] hbN (id (constant (F := Ideal) ⟨0, ![]⟩ .f32 0x00000000#32))))
        hcast
      = colOf (facVec dst) := by
  funext i
  obtain ⟨n, u, rfl⟩ : ∃ (n : Fin 100000) (u : Fin 1), i = ix2 n u := ⟨i 0, i 1, eq_ix2 i⟩
  rw [shapeCast_col_apply]
  have e0 : broadcastInDim ⟨1, ![100000]⟩ ![] hbN (constant (F := Ideal) ⟨0, ![]⟩ .f32 0x00000000#32) (ix1 n)
      = Ideal.ofBits .f32 0x00000000#32 := by
    rw [ValueIdx.broadcastInDim_scalar_apply]; rfl
  have e1 : broadcastInDim ⟨1, ![100000]⟩ ![] hbN (constant (F := Ideal) ⟨0, ![]⟩ .f32 0x3F800000#32) (ix1 n)
      = Ideal.ofBits .f32 0x3F800000#32 := by
    rw [ValueIdx.broadcastInDim_scalar_apply]; rfl
  have e2 : broadcastInDim ⟨1, ![100000]⟩ ![] hbN (id (constant (F := Ideal) ⟨0, ![]⟩ .f32 0x00000000#32)) (ix1 n)
      = Ideal.ofBits .f32 0x00000000#32 := by
    rw [ValueIdx.broadcastInDim_scalar_apply]; rfl
  show Scalar.select (FloatOps.cmpf (F := Ideal) .ogt (deg (ix1 n))
        (broadcastInDim ⟨1, ![100000]⟩ ![] hbN (constant (F := Ideal) ⟨0, ![]⟩ .f32 0x00000000#32) (ix1 n)))
      (FloatOps.hostUnary (F := Ideal) .rsqrt (FloatOps.maximumf (F := Ideal) (deg (ix1 n))
        (broadcastInDim ⟨1, ![100000]⟩ ![] hbN (constant (F := Ideal) ⟨0, ![]⟩ .f32 0x3F800000#32) (ix1 n))))
      (broadcastInDim ⟨1, ![100000]⟩ ![] hbN (id (constant (F := Ideal) ⟨0, ![]⟩ .f32 0x00000000#32)) (ix1 n))
    = facOf (degAt dst n)
  rw [e0, e1, e2, hdeg]
  rfl

/-- A vector cast to one row reads, at (u, c), the vector at c. -/
theorem shapeCast_vecRow_eq {C : ℕ} (v : (⟨1, ![C]⟩ : Shape).Idx → EReal)
    (h : (⟨1, ![C]⟩ : Shape).ShapeCasts ⟨2, ![1, C]⟩) : shapeCast ⟨2, ![1, C]⟩ v h = rowOfVec v := by
  funext i
  obtain ⟨u, c, rfl⟩ : ∃ (u : Fin 1) (c : Fin C), i = ix2 u c := ⟨i 0, i 1, eq_ix2 i⟩
  refine shapeCast_apply v h _ _ ?_
  have hu : u.val = 0 := by omega
  rw [Shape.rowMajor_val_two, Shape.rowMajor_val_one]
  show c.val = u.val * C + c.val
  rw [hu]; omega

end Cert.Gcn

end
-- ==== Proof.KernelValue.lean ====
/-
  The idealized kernel's returned array is the first arrangement of the graph convolution.

  The program is three pipelined regions among stretches of host operations. The buffer contents at every boundary
  are a fold from the launch contents: a stretch of host operations is a function of the contents before it, a
  region leaves in its output array its stage of the arrays it was entered with and every other buffer as entered.
  Read backwards from the returned array:

      the third region's result  = the last stage of (the second walk along the edges, the factor column, the second bias row);
      the second walk            = the rows of the second region's result gathered along the edges and summed into
                                   the node each edge ends at;
      the second region's result = the middle stage of (the first walk, the factor column, the first bias row, the second weights);
      the first walk             = the same walk over the first region's result;
      the first region's result  = the first stage of (the features, the first weights, the factor column);
      the factor column and the two bias rows are computed before the first region from the end indices and the biases,

  and the edge lists, the weights and the features are written by nothing, so they are the launch contents
  throughout. Substituting upwards gives the first arrangement, term for term.
-/
import proofs.«127769_j32942399160959_2_alg».proof.Proof.Gen.KernelIdeal.Frame
import proofs.«127769_j32942399160959_2_alg».proof.Proof.Spec
import proofs.«127769_j32942399160959_2_alg».proof.Proof.KernelStages
import proofs.«127769_j32942399160959_2_alg».proof.Proof.KernelStage1
import proofs.«127769_j32942399160959_2_alg».proof.Proof.HostWalk
import Idealize.ShloMosaic.Lib.StableHlo.Run

set_option maxRecDepth 16384

noncomputable section

namespace Cert.KernelIdeal.KernelValue

open Cert.KernelIdeal Cert.KernelIdeal.Gen
open Idealize.ShloMosaic Idealize.ShloMosaic.TcCoe Idealize.ShloMosaic.Tactic
open Idealize.ShloMosaic.StableHlo
open Idealize.ShloMosaic.ValueIdx Cert.LayoutLib Cert.DenseLib Cert.RowsLib Cert.ScatterLib Cert.Gcn

/-! ## The host computations in the program's own spelling

    The program's scatter and gather records have the fields of the general row and vector forms, so the degrees,
    the factor column and the walk along the edges are the functions of the specification. Each is stated between
    whole arrays, never at an index. -/

/-- The program's vector scatter is the general vector form. -/
theorem scatterVec_eq (x : FVec Ideal S100000 .f32) (i : IVec S1700000x1 32) (u : FVec Ideal S1700000 .f32) :
    Host.scatterAdd (F := Ideal) scatter_S100000_S1700000x1_S1700000_n_0_0_1 x i u
      = Ideal.hostScatterAdd (vecScatterDims 100000 1700000 scatter_S100000_S1700000x1_S1700000_n_0_0_1_wf) x i u := rfl

/-- The program's row scatter at 64 columns is the general row form. -/
theorem scatterRows64_eq (x : FVec Ideal S100000x64 .f32) (i : IVec S1700000x1 32) (u : FVec Ideal S1700000x64 .f32) :
    Host.scatterAdd (F := Ideal) scatter_S100000x64_S1700000x1_S1700000x64_1_0_0_1 x i u
      = Ideal.hostScatterAdd (rowScatterDims 100000 64 1700000 scatter_S100000x64_S1700000x1_S1700000x64_1_0_0_1_wf) x i u := rfl

/-- The program's row scatter at 16 columns is the general row form. -/
theorem scatterRows16_eq (x : FVec Ideal S100000x16 .f32) (i : IVec S1700000x1 32) (u : FVec Ideal S1700000x16 .f32) :
    Host.scatterAdd (F := Ideal) scatter_S100000x16_S1700000x1_S1700000x16_1_0_0_1 x i u
      = Ideal.hostScatterAdd (rowScatterDims 100000 16 1700000 scatter_S100000x16_S1700000x1_S1700000x16_1_0_0_1_wf) x i u := rfl

/-- The degrees: ones summed into zeros at the end indices. -/
theorem deg_fun (dst : IVec S1700000 32) (n : Fin 100000) :
    (Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 dst) (broadcastInDim S1700000 ![] bcast_S_S1700000 (constant (F := Ideal) S_ .f32 0x3F800000#32))) (ix1 n) = degAt dst n := by
  rw [scatterVec_eq]
  exact deg_apply _ _ _ _ _ n

/-- The factor column from the end indices. -/
theorem facCol_fun (dst : IVec S1700000 32) :
    shapeCast S100000x1
        (select (cmpf (F := Ideal) .ogt (Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 dst) (broadcastInDim S1700000 ![] bcast_S_S1700000 (constant (F := Ideal) S_ .f32 0x3F800000#32))) (broadcastInDim S100000 ![] bcast_S_S100000 (constant (F := Ideal) S_ .f32 0x00000000#32)))
          (Host.rsqrt (F := Ideal) (maximumf (Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 dst) (broadcastInDim S1700000 ![] bcast_S_S1700000 (constant (F := Ideal) S_ .f32 0x3F800000#32))) (broadcastInDim S100000 ![] bcast_S_S100000 (constant (F := Ideal) S_ .f32 0x3F800000#32))))
          (broadcastInDim S100000 ![] bcast_S_S100000 (id (constant (F := Ideal) S_ .f32 0x00000000#32))))
        shapeCasts_S100000_S100000x1
      = colOf (facVec dst) := by
  refine facCol_eq bcast_S_S100000 shapeCasts_S100000_S100000x1 dst _ ?_
  exact deg_fun dst

/-- The walk along the edges over an array of 64 columns. -/
theorem walk64 (H : FVec Ideal S100000x64 .f32) (src dst : IVec S1700000 32) :
    Host.scatterAdd (F := Ideal) scatter_S100000x64_S1700000x1_S1700000x64_1_0_0_1
        (broadcastInDim S100000x64 ![] bcast_S_S100000x64 (constant (F := Ideal) S_ .f32 0x00000000#32))
        (broadcastInDim S1700000x1 ![0] bcast_S1700000_S1700000x1_0 dst)
        (Host.gather gather_S100000x64_S1700000x1_S1700000x64_1_0_n_n_0_1_164 H (broadcastInDim S1700000x1 ![0] bcast_S1700000_S1700000x1_0 (select (cmpi .slt src (broadcastInDim S1700000 ![] bcast_S_S1700000 (constantI S_ 32 0#32))) (addi src (broadcastInDim S1700000 ![] bcast_S_S1700000 (constantI S_ 32 100000#32))) src)))
      = sumInto (nodeOf dst) (takeRows (nodeRow src) H) := by
  rw [scatterRows64_eq]
  exact edgeWalk_eq _ _ _ _ _ _ _ _

/-- The walk along the edges over an array of 16 columns. -/
theorem walk16 (H : FVec Ideal S100000x16 .f32) (src dst : IVec S1700000 32) :
    Host.scatterAdd (F := Ideal) scatter_S100000x16_S1700000x1_S1700000x16_1_0_0_1
        (broadcastInDim S100000x16 ![] bcast_S_S100000x16 (constant (F := Ideal) S_ .f32 0x00000000#32))
        (broadcastInDim S1700000x1 ![0] bcast_S1700000_S1700000x1_0 dst)
        (Host.gather gather_S100000x16_S1700000x1_S1700000x16_1_0_n_n_0_1_116 H (broadcastInDim S1700000x1 ![0] bcast_S1700000_S1700000x1_0 (select (cmpi .slt src (broadcastInDim S1700000 ![] bcast_S_S1700000 (constantI S_ 32 0#32))) (addi src (broadcastInDim S1700000 ![] bcast_S_S1700000 (constantI S_ 32 100000#32))) src)))
      = sumInto (nodeOf dst) (takeRows (nodeRow src) H) := by
  rw [scatterRows16_eq]
  exact edgeWalk_eq _ _ _ _ _ _ _ _

/-- A buffer no operation of a stretch writes holds after the stretch what it held before. -/
local macro "keep_host" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable (Wx : Valuation τ sig (Elt Ideal))

/-! ## The host stretches, each as one function of the buffer contents before it

    The stretch before the first region (three lists of operations) computes the node factors as one column and
    lays the two bias vectors out as rows; the stretch before the second and the one before the third walk the
    edges over the array the region before them left. Every other buffer read later is written by none of them. -/

set_option maxHeartbeats 400000 in
/-- The first list: the comparison of the degrees with zero. -/
theorem host0a_v5 :
    StableHlo.after (hostOps0 (F := Ideal)) Wx (Proc.devRef .tc main_v5)
      = cmpf (F := Ideal) .ogt (Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 (Wx (Proc.devRef .tc main_arg2))) (broadcastInDim S1700000 ![] bcast_S_S1700000 (constant (F := Ideal) S_ .f32 0x3F800000#32))) (broadcastInDim S100000 ![] bcast_S_S100000 (constant (F := Ideal) S_ .f32 0x00000000#32)) := by
  after_results

set_option maxHeartbeats 400000 in
/-- The first list: the inverse square root of the degrees, each at least one. -/
theorem host0a_v8 :
    StableHlo.after (hostOps0 (F := Ideal)) Wx (Proc.devRef .tc main_v8)
      = Host.rsqrt (F := Ideal) (maximumf (Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 (Wx (Proc.devRef .tc main_arg2))) (broadcastInDim S1700000 ![] bcast_S_S1700000 (constant (F := Ideal) S_ .f32 0x3F800000#32))) (broadcastInDim S100000 ![] bcast_S_S100000 (constant (F := Ideal) S_ .f32 0x3F800000#32))) := by
  after_results

set_option maxHeartbeats 400000 in
/-- The first list: the scalar zero. -/
theorem host0a_cst3 :
    StableHlo.after (hostOps0 (F := Ideal)) Wx (Proc.devRef .tc main_cst_3)
      = constant (F := Ideal) S_ .f32 0x00000000#32 := by
  after_results

set_option maxHeartbeats 400000 in
/-- The second list: the selection between the inverse square root and zero. -/
theorem host0b_v9 :
    StableHlo.after (hostOps0_1 (F := Ideal)) Wx (Proc.devRef .tc main_v9)
      = select (Wx (Proc.devRef .tc main_v5)) (Wx (Proc.devRef .tc main_v8)) (broadcastInDim S100000 ![] bcast_S_S100000 (id (Wx (Proc.devRef .tc main_cst_3)))) := by
  after_results
  rfl

set_option maxHeartbeats 400000 in
/-- The third list: the vector of factors cast to one column. -/
theorem host0c_v10 :
    StableHlo.after (hostOps0_2 (F := Ideal)) Wx (Proc.devRef .tc main_v10)
      = shapeCast S100000x1 (Wx (Proc.devRef .tc main_v9)) shapeCasts_S100000_S100000x1 := by
  after_results
  rfl

set_option maxHeartbeats 400000 in
/-- Before the first region: the column of node factors. -/
theorem host0_v10 :
    StableHlo.after (hostOps0_2 (F := Ideal)) (StableHlo.after (hostOps0_1 (F := Ideal)) (StableHlo.after (hostOps0 (F := Ideal)) Wx)) (Proc.devRef .tc main_v10)
      = colOf (facVec (Wx (Proc.devRef .tc main_arg2))) := by
  rw [host0c_v10, host0b_v9, host0a_v5, host0a_v8, host0a_cst3]
  exact facCol_fun _

set_option maxHeartbeats 400000 in
/-- Before the first region: the first bias as one row. -/
theorem host0_v11 :
    StableHlo.after (hostOps0_2 (F := Ideal)) (StableHlo.after (hostOps0_1 (F := Ideal)) (StableHlo.after (hostOps0 (F := Ideal)) Wx)) (Proc.devRef .tc main_v11)
      = rowOfVec (Wx (Proc.devRef .tc main_arg4)) := by
  after_results
  exact shapeCast_vecRow_eq _ _

set_option maxHeartbeats 400000 in
/-- Before the first region: the second bias as one row. -/
theorem host0_v12 :
    StableHlo.after (hostOps0_2 (F := Ideal)) (StableHlo.after (hostOps0_1 (F := Ideal)) (StableHlo.after (hostOps0 (F := Ideal)) Wx)) (Proc.devRef .tc main_v12)
      = rowOfVec (Wx (Proc.devRef .tc main_arg6)) := by
  after_results
  exact shapeCast_vecRow_eq _ _

set_option maxHeartbeats 400000 in
theorem host0_keep_arg0 :
    StableHlo.after (hostOps0_2 (F := Ideal)) (StableHlo.after (hostOps0_1 (F := Ideal)) (StableHlo.after (hostOps0 (F := Ideal)) Wx)) (Proc.devRef .tc main_arg0)
      = Wx (Proc.devRef .tc main_arg0) :=
  calc StableHlo.after (hostOps0_2 (F := Ideal)) (StableHlo.after (hostOps0_1 (F := Ideal)) (StableHlo.after (hostOps0 (F := Ideal)) Wx)) (Proc.devRef .tc main_arg0)
    _ = StableHlo.after (hostOps0_1 (F := Ideal)) (StableHlo.after (hostOps0 (F := Ideal)) Wx) (Proc.devRef .tc main_arg0) := by keep_host hostOps0_2
    _ = StableHlo.after (hostOps0 (F := Ideal)) Wx (Proc.devRef .tc main_arg0) := by keep_host hostOps0_1
    _ = Wx (Proc.devRef .tc main_arg0) := by keep_host hostOps0

set_option maxHeartbeats 400000 in
theorem host0_keep_arg1 :
    StableHlo.after (hostOps0_2 (F := Ideal)) (StableHlo.after (hostOps0_1 (F := Ideal)) (StableHlo.after (hostOps0 (F := Ideal)) Wx)) (Proc.devRef .tc main_arg1)
      = Wx (Proc.devRef .tc main_arg1) :=
  calc StableHlo.after (hostOps0_2 (F := Ideal)) (StableHlo.after (hostOps0_1 (F := Ideal)) (StableHlo.after (hostOps0 (F := Ideal)) Wx)) (Proc.devRef .tc main_arg1)
    _ = StableHlo.after (hostOps0_1 (F := Ideal)) (StableHlo.after (hostOps0 (F := Ideal)) Wx) (Proc.devRef .tc main_arg1) := by keep_host hostOps0_2
    _ = StableHlo.after (hostOps0 (F := Ideal)) Wx (Proc.devRef .tc main_arg1) := by keep_host hostOps0_1
    _ = Wx (Proc.devRef .tc main_arg1) := by keep_host hostOps0

set_option maxHeartbeats 400000 in
theorem host0_keep_arg2 :
    StableHlo.after (hostOps0_2 (F := Ideal)) (StableHlo.after (hostOps0_1 (F := Ideal)) (StableHlo.after (hostOps0 (F := Ideal)) Wx)) (Proc.devRef .tc main_arg2)
      = Wx (Proc.devRef .tc main_arg2) :=
  calc StableHlo.after (hostOps0_2 (F := Ideal)) (StableHlo.after (hostOps0_1 (F := Ideal)) (StableHlo.after (hostOps0 (F := Ideal)) Wx)) (Proc.devRef .tc main_arg2)
    _ = StableHlo.after (hostOps0_1 (F := Ideal)) (StableHlo.after (hostOps0 (F := Ideal)) Wx) (Proc.devRef .tc main_arg2) := by keep_host hostOps0_2
    _ = StableHlo.after (hostOps0 (F := Ideal)) Wx (Proc.devRef .tc main_arg2) := by keep_host hostOps0_1
    _ = Wx (Proc.devRef .tc main_arg2) := by keep_host hostOps0

set_option maxHeartbeats 400000 in
theorem host0_keep_arg3 :
    StableHlo.after (hostOps0_2 (F := Ideal)) (StableHlo.after (hostOps0_1 (F := Ideal)) (StableHlo.after (hostOps0 (F := Ideal)) Wx)) (Proc.devRef .tc main_arg3)
      = Wx (Proc.devRef .tc main_arg3) :=
  calc StableHlo.after (hostOps0_2 (F := Ideal)) (StableHlo.after (hostOps0_1 (F := Ideal)) (StableHlo.after (hostOps0 (F := Ideal)) Wx)) (Proc.devRef .tc main_arg3)
    _ = StableHlo.after (hostOps0_1 (F := Ideal)) (StableHlo.after (hostOps0 (F := Ideal)) Wx) (Proc.devRef .tc main_arg3) := by keep_host hostOps0_2
    _ = StableHlo.after (hostOps0 (F := Ideal)) Wx (Proc.devRef .tc main_arg3) := by keep_host hostOps0_1
    _ = Wx (Proc.devRef .tc main_arg3) := by keep_host hostOps0

set_option maxHeartbeats 400000 in
theorem host0_keep_arg5 :
    StableHlo.after (hostOps0_2 (F := Ideal)) (StableHlo.after (hostOps0_1 (F := Ideal)) (StableHlo.after (hostOps0 (F := Ideal)) Wx)) (Proc.devRef .tc main_arg5)
      = Wx (Proc.devRef .tc main_arg5) :=
  calc StableHlo.after (hostOps0_2 (F := Ideal)) (StableHlo.after (hostOps0_1 (F := Ideal)) (StableHlo.after (hostOps0 (F := Ideal)) Wx)) (Proc.devRef .tc main_arg5)
    _ = StableHlo.after (hostOps0_1 (F := Ideal)) (StableHlo.after (hostOps0 (F := Ideal)) Wx) (Proc.devRef .tc main_arg5) := by keep_host hostOps0_2
    _ = StableHlo.after (hostOps0 (F := Ideal)) Wx (Proc.devRef .tc main_arg5) := by keep_host hostOps0_1
    _ = Wx (Proc.devRef .tc main_arg5) := by keep_host hostOps0

set_option maxHeartbeats 400000 in
/-- Before the second region: the walk along the edges over the first region's result. -/
theorem host1_v23 :
    StableHlo.after (hostOps1 (F := Ideal)) Wx (Proc.devRef .tc main_v23)
      = sumInto (nodeOf (Wx (Proc.devRef .tc main_arg2))) (takeRows (nodeRow (Wx (Proc.devRef .tc main_arg1))) (Wx (Proc.devRef .tc main_v13))) := by
  after_results
  exact walk64 _ _ _

set_option maxHeartbeats 400000 in
theorem host1_keep_v10 :
    StableHlo.after (hostOps1 (F := Ideal)) Wx (Proc.devRef .tc main_v10) = Wx (Proc.devRef .tc main_v10) := by
  keep_host hostOps1

set_option maxHeartbeats 400000 in
theorem host1_keep_v11 :
    StableHlo.after (hostOps1 (F := Ideal)) Wx (Proc.devRef .tc main_v11) = Wx (Proc.devRef .tc main_v11) := by
  keep_host hostOps1

set_option maxHeartbeats 400000 in
theorem host1_keep_v12 :
    StableHlo.after (hostOps1 (F := Ideal)) Wx (Proc.devRef .tc main_v12) = Wx (Proc.devRef .tc main_v12) := by
  keep_host hostOps1

set_option maxHeartbeats 400000 in
theorem host1_keep_arg1 :
    StableHlo.after (hostOps1 (F := Ideal)) Wx (Proc.devRef .tc main_arg1) = Wx (Proc.devRef .tc main_arg1) := by
  keep_host hostOps1

set_option maxHeartbeats 400000 in
theorem host1_keep_arg2 :
    StableHlo.after (hostOps1 (F := Ideal)) Wx (Proc.devRef .tc main_arg2) = Wx (Proc.devRef .tc main_arg2) := by
  keep_host hostOps1

set_option maxHeartbeats 400000 in
theorem host1_keep_arg5 :
    StableHlo.after (hostOps1 (F := Ideal)) Wx (Proc.devRef .tc main_arg5) = Wx (Proc.devRef .tc main_arg5) := by
  keep_host hostOps1

set_option maxHeartbeats 400000 in
/-- Before the third region: the walk along the edges over the second region's result. -/
theorem host2_v34 :
    StableHlo.after (hostOps2 (F := Ideal)) Wx (Proc.devRef .tc main_v34)
      = sumInto (nodeOf (Wx (Proc.devRef .tc main_arg2))) (takeRows (nodeRow (Wx (Proc.devRef .tc main_arg1))) (Wx (Proc.devRef .tc main_v24))) := by
  after_results
  exact walk16 _ _ _

set_option maxHeartbeats 400000 in
theorem host2_keep_v10 :
    StableHlo.after (hostOps2 (F := Ideal)) Wx (Proc.devRef .tc main_v10) = Wx (Proc.devRef .tc main_v10) := by
  keep_host hostOps2

set_option maxHeartbeats 400000 in
theorem host2_keep_v12 :
    StableHlo.after (hostOps2 (F := Ideal)) Wx (Proc.devRef .tc main_v12) = Wx (Proc.devRef .tc main_v12) := by
  keep_host hostOps2

/-! ## The regions: each output array is its stage of the arrays the region was entered with; an input array and
    every buffer outside the region are as entered -/

variable (m : (ℓ : Loc nD τ sig) → Buf (Elt Ideal) ℓ) (ρ : Dev nD → PrngReg) (c : Dev nD)

theorem w4_v13 : W4 m ρ c (Proc.devRef .tc main_v13)
    = stage0 (W3 m ρ c (Proc.devRef .tc main_arg0)) (W3 m ρ c (Proc.devRef .tc main_arg3)) (W3 m ρ c (Proc.devRef .tc main_v10)) :=
  (W4_arr m ρ c 3).trans (Stages.final0 (V3 m ρ) c)

theorem w4_v10 : W4 m ρ c (Proc.devRef .tc main_v10) = W3 m ρ c (Proc.devRef .tc main_v10) :=
  (W4_arr m ρ c 2).trans (((dat0 (V3 m ρ) c).arrAt_in 2 rfl _).trans (A_eq0 (V3 m ρ) c 2))

theorem w4_v11 : W4 m ρ c (Proc.devRef .tc main_v11) = W3 m ρ c (Proc.devRef .tc main_v11) := W4_of_ne m ρ c main_v11 (by decide)

theorem w4_v12 : W4 m ρ c (Proc.devRef .tc main_v12) = W3 m ρ c (Proc.devRef .tc main_v12) := W4_of_ne m ρ c main_v12 (by decide)

theorem w4_arg1 : W4 m ρ c (Proc.devRef .tc main_arg1) = W3 m ρ c (Proc.devRef .tc main_arg1) := W4_of_ne m ρ c main_arg1 (by decide)

theorem w4_arg2 : W4 m ρ c (Proc.devRef .tc main_arg2) = W3 m ρ c (Proc.devRef .tc main_arg2) := W4_of_ne m ρ c main_arg2 (by decide)

theorem w4_arg5 : W4 m ρ c (Proc.devRef .tc main_arg5) = W3 m ρ c (Proc.devRef .tc main_arg5) := W4_of_ne m ρ c main_arg5 (by decide)

theorem w6_v24 : W6 m ρ c (Proc.devRef .tc main_v24)
    = stage1 (W5 m ρ c (Proc.devRef .tc main_v23)) (W5 m ρ c (Proc.devRef .tc main_v10)) (W5 m ρ c (Proc.devRef .tc main_v11)) (W5 m ρ c (Proc.devRef .tc main_arg5)) :=
  (W6_arr m ρ c 4).trans (Stage1.final1 (V5 m ρ) c)

theorem w6_v10 : W6 m ρ c (Proc.devRef .tc main_v10) = W5 m ρ c (Proc.devRef .tc main_v10) :=
  (W6_arr m ρ c 1).trans (((dat1 (V5 m ρ) c).arrAt_in 1 rfl _).trans (A_eq1 (V5 m ρ) c 1))

theorem w6_v12 : W6 m ρ c (Proc.devRef .tc main_v12) = W5 m ρ c (Proc.devRef .tc main_v12) := W6_of_ne m ρ c main_v12 (by decide)

theorem w6_arg1 : W6 m ρ c (Proc.devRef .tc main_arg1) = W5 m ρ c (Proc.devRef .tc main_arg1) := W6_of_ne m ρ c main_arg1 (by decide)

theorem w6_arg2 : W6 m ρ c (Proc.devRef .tc main_arg2) = W5 m ρ c (Proc.devRef .tc main_arg2) := W6_of_ne m ρ c main_arg2 (by decide)

theorem w8_v35 : W8 m ρ c (Proc.devRef .tc main_v35)
    = stage2 (W7 m ρ c (Proc.devRef .tc main_v34)) (W7 m ρ c (Proc.devRef .tc main_v10)) (W7 m ρ c (Proc.devRef .tc main_v12)) :=
  (W8_arr m ρ c 3).trans (Stages.final2 (V7 m ρ) c)

/-! ## The buffers at every boundary, in terms of the launch contents -/

theorem w3_v10 : W3 m ρ c (Proc.devRef .tc main_v10) = (colOf (facVec (m ((c.tc : Thread nD τ).loc main_arg2)))) := host0_v10 (W0 m ρ c)
theorem w3_v11 : W3 m ρ c (Proc.devRef .tc main_v11) = rowOfVec (m ((c.tc : Thread nD τ).loc main_arg4)) := host0_v11 (W0 m ρ c)
theorem w3_v12 : W3 m ρ c (Proc.devRef .tc main_v12) = rowOfVec (m ((c.tc : Thread nD τ).loc main_arg6)) := host0_v12 (W0 m ρ c)
theorem w3_arg0 : W3 m ρ c (Proc.devRef .tc main_arg0) = (m ((c.tc : Thread nD τ).loc main_arg0)) := host0_keep_arg0 (W0 m ρ c)
theorem w3_arg1 : W3 m ρ c (Proc.devRef .tc main_arg1) = (m ((c.tc : Thread nD τ).loc main_arg1)) := host0_keep_arg1 (W0 m ρ c)
theorem w3_arg2 : W3 m ρ c (Proc.devRef .tc main_arg2) = (m ((c.tc : Thread nD τ).loc main_arg2)) := host0_keep_arg2 (W0 m ρ c)
theorem w3_arg3 : W3 m ρ c (Proc.devRef .tc main_arg3) = (m ((c.tc : Thread nD τ).loc main_arg3)) := host0_keep_arg3 (W0 m ρ c)
theorem w3_arg5 : W3 m ρ c (Proc.devRef .tc main_arg5) = (m ((c.tc : Thread nD τ).loc main_arg5)) := host0_keep_arg5 (W0 m ρ c)

/-- After the first region: the first stage of the inputs. -/
theorem a4_v13 : W4 m ρ c (Proc.devRef .tc main_v13) = (stage0 (m ((c.tc : Thread nD τ).loc main_arg0)) (m ((c.tc : Thread nD τ).loc main_arg3)) (colOf (facVec (m ((c.tc : Thread nD τ).loc main_arg2))))) := by
  rw [w4_v13, w3_arg0, w3_arg3, w3_v10]
theorem a4_v10 : W4 m ρ c (Proc.devRef .tc main_v10) = (colOf (facVec (m ((c.tc : Thread nD τ).loc main_arg2)))) := (w4_v10 m ρ c).trans (w3_v10 m ρ c)
theorem a4_v11 : W4 m ρ c (Proc.devRef .tc main_v11) = rowOfVec (m ((c.tc : Thread nD τ).loc main_arg4)) := (w4_v11 m ρ c).trans (w3_v11 m ρ c)
theorem a4_v12 : W4 m ρ c (Proc.devRef .tc main_v12) = rowOfVec (m ((c.tc : Thread nD τ).loc main_arg6)) := (w4_v12 m ρ c).trans (w3_v12 m ρ c)
theorem a4_arg1 : W4 m ρ c (Proc.devRef .tc main_arg1) = (m ((c.tc : Thread nD τ).loc main_arg1)) := (w4_arg1 m ρ c).trans (w3_arg1 m ρ c)
theorem a4_arg2 : W4 m ρ c (Proc.devRef .tc main_arg2) = (m ((c.tc : Thread nD τ).loc main_arg2)) := (w4_arg2 m ρ c).trans (w3_arg2 m ρ c)
theorem a4_arg5 : W4 m ρ c (Proc.devRef .tc main_arg5) = (m ((c.tc : Thread nD τ).loc main_arg5)) := (w4_arg5 m ρ c).trans (w3_arg5 m ρ c)

/-- Before the second region: the first walk along the edges. -/
theorem a5_v23 : W5 m ρ c (Proc.devRef .tc main_v23) = (sumInto (nodeOf (m ((c.tc : Thread nD τ).loc main_arg2))) (takeRows (nodeRow (m ((c.tc : Thread nD τ).loc main_arg1))) (stage0 (m ((c.tc : Thread nD τ).loc main_arg0)) (m ((c.tc : Thread nD τ).loc main_arg3)) (colOf (facVec (m ((c.tc : Thread nD τ).loc main_arg2))))))) := by
  refine (host1_v23 (W4 m ρ c)).trans ?_
  rw [a4_arg2, a4_arg1, a4_v13]
theorem a5_v10 : W5 m ρ c (Proc.devRef .tc main_v10) = (colOf (facVec (m ((c.tc : Thread nD τ).loc main_arg2)))) := (host1_keep_v10 (W4 m ρ c)).trans (a4_v10 m ρ c)
theorem a5_v11 : W5 m ρ c (Proc.devRef .tc main_v11) = rowOfVec (m ((c.tc : Thread nD τ).loc main_arg4)) := (host1_keep_v11 (W4 m ρ c)).trans (a4_v11 m ρ c)
theorem a5_v12 : W5 m ρ c (Proc.devRef .tc main_v12) = rowOfVec (m ((c.tc : Thread nD τ).loc main_arg6)) := (host1_keep_v12 (W4 m ρ c)).trans (a4_v12 m ρ c)
theorem a5_arg1 : W5 m ρ c (Proc.devRef .tc main_arg1) = (m ((c.tc : Thread nD τ).loc main_arg1)) := (host1_keep_arg1 (W4 m ρ c)).trans (a4_arg1 m ρ c)
theorem a5_arg2 : W5 m ρ c (Proc.devRef .tc main_arg2) = (m ((c.tc : Thread nD τ).loc main_arg2)) := (host1_keep_arg2 (W4 m ρ c)).trans (a4_arg2 m ρ c)
theorem a5_arg5 : W5 m ρ c (Proc.devRef .tc main_arg5) = (m ((c.tc : Thread nD τ).loc main_arg5)) := (host1_keep_arg5 (W4 m ρ c)).trans (a4_arg5 m ρ c)

/-- After the second region: the second stage. -/
theorem a6_v24 : W6 m ρ c (Proc.devRef .tc main_v24) = (stage1 (sumInto (nodeOf (m ((c.tc : Thread nD τ).loc main_arg2))) (takeRows (nodeRow (m ((c.tc : Thread nD τ).loc main_arg1))) (stage0 (m ((c.tc : Thread nD τ).loc main_arg0)) (m ((c.tc : Thread nD τ).loc main_arg3)) (colOf (facVec (m ((c.tc : Thread nD τ).loc main_arg2))))))) (colOf (facVec (m ((c.tc : Thread nD τ).loc main_arg2)))) (rowOfVec (m ((c.tc : Thread nD τ).loc main_arg4))) (m ((c.tc : Thread nD τ).loc main_arg5))) := by
  rw [w6_v24, a5_v23, a5_v10, a5_v11, a5_arg5]
theorem a6_v10 : W6 m ρ c (Proc.devRef .tc main_v10) = (colOf (facVec (m ((c.tc : Thread nD τ).loc main_arg2)))) := (w6_v10 m ρ c).trans (a5_v10 m ρ c)
theorem a6_v12 : W6 m ρ c (Proc.devRef .tc main_v12) = rowOfVec (m ((c.tc : Thread nD τ).loc main_arg6)) := (w6_v12 m ρ c).trans (a5_v12 m ρ c)
theorem a6_arg1 : W6 m ρ c (Proc.devRef .tc main_arg1) = (m ((c.tc : Thread nD τ).loc main_arg1)) := (w6_arg1 m ρ c).trans (a5_arg1 m ρ c)
theorem a6_arg2 : W6 m ρ c (Proc.devRef .tc main_arg2) = (m ((c.tc : Thread nD τ).loc main_arg2)) := (w6_arg2 m ρ c).trans (a5_arg2 m ρ c)

/-- Before the third region: the second walk along the edges. -/
theorem a7_v34 : W7 m ρ c (Proc.devRef .tc main_v34) = (sumInto (nodeOf (m ((c.tc : Thread nD τ).loc main_arg2))) (takeRows (nodeRow (m ((c.tc : Thread nD τ).loc main_arg1))) (stage1 (sumInto (nodeOf (m ((c.tc : Thread nD τ).loc main_arg2))) (takeRows (nodeRow (m ((c.tc : Thread nD τ).loc main_arg1))) (stage0 (m ((c.tc : Thread nD τ).loc main_arg0)) (m ((c.tc : Thread nD τ).loc main_arg3)) (colOf (facVec (m ((c.tc : Thread nD τ).loc main_arg2))))))) (colOf (facVec (m ((c.tc : Thread nD τ).loc main_arg2)))) (rowOfVec (m ((c.tc : Thread nD τ).loc main_arg4))) (m ((c.tc : Thread nD τ).loc main_arg5))))) := by
  refine (host2_v34 (W6 m ρ c)).trans ?_
  rw [a6_arg2, a6_arg1, a6_v24]
theorem a7_v10 : W7 m ρ c (Proc.devRef .tc main_v10) = (colOf (facVec (m ((c.tc : Thread nD τ).loc main_arg2)))) := (host2_keep_v10 (W6 m ρ c)).trans (a6_v10 m ρ c)
theorem a7_v12 : W7 m ρ c (Proc.devRef .tc main_v12) = rowOfVec (m ((c.tc : Thread nD τ).loc main_arg6)) := (host2_keep_v12 (W6 m ρ c)).trans (a6_v12 m ρ c)

/-- THE RESULT: after the third region the returned array is the first arrangement of the launch contents. -/
theorem result (m : (ℓ : Loc nD τ sig) → Buf (Elt Ideal) ℓ) (ρ : Dev nD → PrngReg) (c : Dev nD) :
    W8 m ρ c (Proc.devRef .tc main_v35)
      = Cert.Gcn.scaledNodes (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) := by
  rw [w8_v35, a7_v34, a7_v10, a7_v12]
  unfold Cert.Gcn.scaledNodes
  rfl

end Cert.KernelIdeal.KernelValue

end
-- ==== Proof.Algebra.lean ====
/-
  The two arrangements of the two-layer graph convolution agree.

  Every quantity that enters a product is a real number: the inputs by hypothesis, the node factors because a
  degree is a finite sum of ones and the factor of a real degree g is the real (√(max g 1))⁻¹ or zero, and sums,
  products, maxima of reals are real. For real entries one layer's identity

      (0 + Σ_{e ends at n} P(src e, k) · d(src e)) · d(n)  =  0 + Σ_{e ends at n} P(src e, k) · (d(src e) · d(dst e))

  is distributivity of a finite real sum over a real factor, together with the fact that an edge that ends at
  node n has n as the row its end index names in a gather (a non-negative index is left by the wrap, and an index
  below the number of nodes is left by the clamp). The two layers are chained: after the first layer's identity
  the bias, the cut at zero and the second product are applied to the same array on both sides.
-/
import proofs.«127769_j32942399160959_2_alg».proof.Proof.Spec

noncomputable section

namespace Cert.Gcn

open Idealize.ShloMosaic Idealize.ShloMosaic.ValueIdx Cert.LayoutLib Cert.DenseLib Cert.RowsLib

namespace Alg

/-! ## Real numbers inside the extended reals -/

/-- The coercion of a finite real sum is the sum of the coercions. -/
theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- The coercion of a maximum of reals is the maximum of the coercions. -/
theorem coe_max (a b : ℝ) : ((max a b : ℝ) : EReal) = max (a : EReal) (b : EReal) :=
  EReal.coe_strictMono.monotone.map_max

/-- An array of reals is the coercion of a real array. -/
theorem real_fun {s : Shape} {X : s.Idx → EReal} (h : AllReal X) : ∃ p : s.Idx → ℝ, X = fun i => (p i : EReal) :=
  ⟨fun i => (h i).choose, funext fun i => (h i).choose_spec⟩

/-! ## Closure of realness under the array operations -/

theorem allReal_mm {M K N : ℕ} {X : (⟨2, ![M, K]⟩ : Shape).Idx → EReal} {W : (⟨2, ![K, N]⟩ : Shape).Idx → EReal}
    (hX : AllReal X) (hW : AllReal W) : AllReal (mm X W) := by
  obtain ⟨p, rfl⟩ := real_fun hX
  obtain ⟨q, rfl⟩ := real_fun hW
  intro i
  refine ⟨∑ k : Fin K, p (ix2 (n0 := M) (i 0) k) * q (ix2 k (n1 := N) (i 1)), ?_⟩
  rw [coe_sum]
  exact Finset.sum_congr rfl fun k _ => (EReal.coe_mul _ _).symm

theorem allReal_rows {M N : ℕ} {b : Fin N → EReal} (hb : ∀ c, ∃ r : ℝ, b c = (r : EReal)) :
    AllReal (rows (M := M) b) := fun i => hb (i 1)

theorem allReal_relu {s : Shape} {X : s.Idx → EReal} (hX : AllReal X) : AllReal (relu X) := by
  intro i
  obtain ⟨r, hr⟩ := hX i
  exact ⟨max r 0, by show max (X i) 0 = _; rw [hr, coe_max, EReal.coe_zero]⟩

theorem allReal_plus {s : Shape} {X Y : s.Idx → EReal} (hX : AllReal X) (hY : AllReal Y) : AllReal (plus X Y) := by
  intro i
  obtain ⟨r, hr⟩ := hX i
  obtain ⟨r', hr'⟩ := hY i
  exact ⟨r + r', by show X i + Y i = _; rw [hr, hr', EReal.coe_add]⟩

theorem allReal_sumInto {N E C : ℕ} (t : Fin E → ℤ) {V : (⟨2, ![E, C]⟩ : Shape).Idx → EReal} (hV : AllReal V) :
    AllReal (sumInto (N := N) t V) := by
  obtain ⟨p, rfl⟩ := real_fun hV
  intro i
  refine ⟨∑ e ∈ Finset.univ.filter (fun e : Fin E => t e = (((i 0 : Fin N).val : ℕ) : ℤ)), p (ix2 e (i 1)), ?_⟩
  rw [coe_sum]
  exact zero_add _

/-! ## The node factors are real -/

/-- A degree is a natural number: zero plus a finite sum of ones. -/
theorem degAt_real (dst : IVec ⟨1, ![1700000]⟩ 32) (n : Fin 100000) : ∃ g : ℝ, degAt dst n = (g : EReal) := by
  refine ⟨∑ _e ∈ Finset.univ.filter (fun e : Fin 1700000 => nodeOf dst e = ((n.val : ℕ) : ℤ)), (1 : ℝ), ?_⟩
  unfold degAt
  rw [Ideal.ofBits_zero_f32, Ideal.ofBits_one_f32, zero_add, coe_sum]
  rfl

/-- The factor of a real degree is real: the inverse square root of a real that is at least one, or zero. -/
theorem facOf_real (g : ℝ) : ∃ r : ℝ, facOf (g : EReal) = (r : EReal) := by
  unfold facOf
  rw [Ideal.ofBits_zero_f32, Ideal.ofBits_one_f32]
  have hc : FloatOps.cmpf (F := Ideal) (φ := .f32) .ogt (g : EReal) 0 = BitVec.ofBool (decide ((0 : EReal) < (g : EReal))) := rfl
  have hm : FloatOps.hostUnary (F := Ideal) (φ := .f32) .rsqrt (FloatOps.maximumf (F := Ideal) (φ := .f32) (g : EReal) 1)
      = Ideal.rsqrt (((max g 1 : ℝ)) : EReal) := by
    rw [coe_max, EReal.coe_one]; rfl
  rw [hc, hm]
  by_cases h : (0 : EReal) < (g : EReal)
  · refine ⟨(Real.sqrt (max g 1))⁻¹, ?_⟩
    have h1 : ¬ (max g 1 < 0) := not_lt.mpr (le_trans zero_le_one (le_max_right g 1))
    have h2 : ¬ (max g 1 = 0) := ne_of_gt (lt_of_lt_of_le zero_lt_one (le_max_right g 1))
    rw [decide_eq_true h]
    show Scalar.select 1#1 _ _ = _
    rw [select_one, Ideal.rsqrt_coe, if_neg h1, if_neg h2]
  · rw [decide_eq_false h]
    exact ⟨0, select_zero _ _⟩

theorem facVec_real (dst : IVec ⟨1, ![1700000]⟩ 32) : AllReal (facVec dst) := by
  intro i
  obtain ⟨g, hg⟩ := degAt_real dst (i 0)
  obtain ⟨r, hr⟩ := facOf_real g
  exact ⟨r, by show facOf (degAt dst (i 0)) = _; rw [hg, hr]⟩

/-! ## An edge that ends at node n names row n -/

/-- The wrap leaves a non-negative index. -/
theorem wrapped_of_nonneg (a : BitVec 32) (h : 0 ≤ a.toInt) : wrapped a = a := by
  unfold wrapped
  have hs : IntOp.cmpi .slt a 0#32 = 0#1 := by
    show BitVec.ofBool (decide (a.toInt < (0#32 : BitVec 32).toInt)) = 0#1
    rw [show (0#32 : BitVec 32).toInt = 0 from by decide, decide_eq_false (not_lt.mpr h)]
    rfl
  rw [hs]
  exact select_zero _ _

/-- If an edge's end index, read as a signed integer, is the node n, then the row it names in a gather is n. -/
theorem nodeRow_of_nodeOf (a : IVec ⟨1, ![1700000]⟩ 32) (e : Fin 1700000) (n : Fin 100000)
    (h : nodeOf a e = ((n.val : ℕ) : ℤ)) : nodeRow a e = n := by
  have h' : (a (ix1 e)).toInt = ((n.val : ℕ) : ℤ) := h
  unfold nodeRow
  rw [wrapped_of_nonneg _ (by rw [h']; exact Int.natCast_nonneg _)]
  refine Fin.ext ?_
  show min (a (ix1 e)).toInt.toNat (100000 - 1) = n.val
  rw [h', Int.toNat_natCast]
  have := n.isLt
  omega

/-! ## One layer -/

/-- ONE LAYER, for any row indices: with real entries, scaling the rows before the edges are walked and the sums
    afterwards is multiplying every edge's row by the product of its two end factors, provided an edge that ends
    at node n has n as the row r names for it. -/
theorem layer {N E C : ℕ} (s r : Fin E → Fin N) (t : Fin E → ℤ)
    (hr : ∀ (e : Fin E) (n : Fin N), t e = ((n.val : ℕ) : ℤ) → r e = n)
    (P : (⟨2, ![N, C]⟩ : Shape).Idx → EReal) (d : (⟨1, ![N]⟩ : Shape).Idx → EReal)
    (hP : AllReal P) (hd : AllReal d) :
    scaleRows (sumInto t (takeRows s (scaleRows P (colOf d)))) (colOf d)
      = sumInto t (fun j => takeRows s P j * (d (ix1 (s (j 0))) * d (ix1 (r (j 0))))) := by
  obtain ⟨p, rfl⟩ := real_fun hP
  obtain ⟨q, rfl⟩ := real_fun hd
  funext i
  obtain ⟨n, k, rfl⟩ : ∃ (n : Fin N) (k : Fin C), i = ix2 n k := ⟨i 0, i 1, eq_ix2 i⟩
  show (0 + ∑ e ∈ Finset.univ.filter (fun e : Fin E => t e = ((n.val : ℕ) : ℤ)),
          ((p (ix2 (s e) k) : ℝ) : EReal) * ((q (ix1 (s e)) : ℝ) : EReal)) * ((q (ix1 n) : ℝ) : EReal)
      = 0 + ∑ e ∈ Finset.univ.filter (fun e : Fin E => t e = ((n.val : ℕ) : ℤ)),
          ((p (ix2 (s e) k) : ℝ) : EReal) * (((q (ix1 (s e)) : ℝ) : EReal) * ((q (ix1 (r e)) : ℝ) : EReal))
  rw [zero_add, zero_add]
  have hL : (∑ e ∈ Finset.univ.filter (fun e : Fin E => t e = ((n.val : ℕ) : ℤ)),
        ((p (ix2 (s e) k) : ℝ) : EReal) * ((q (ix1 (s e)) : ℝ) : EReal))
      = ((∑ e ∈ Finset.univ.filter (fun e : Fin E => t e = ((n.val : ℕ) : ℤ)), p (ix2 (s e) k) * q (ix1 (s e)) : ℝ) : EReal) := by
    rw [coe_sum]
    exact Finset.sum_congr rfl fun e _ => (EReal.coe_mul _ _).symm
  have hR : (∑ e ∈ Finset.univ.filter (fun e : Fin E => t e = ((n.val : ℕ) : ℤ)),
        ((p (ix2 (s e) k) : ℝ) : EReal) * (((q (ix1 (s e)) : ℝ) : EReal) * ((q (ix1 (r e)) : ℝ) : EReal)))
      = ((∑ e ∈ Finset.univ.filter (fun e : Fin E => t e = ((n.val : ℕ) : ℤ)),
          p (ix2 (s e) k) * (q (ix1 (s e)) * q (ix1 (r e))) : ℝ) : EReal) := by
    rw [coe_sum]
    exact Finset.sum_congr rfl fun e _ => by rw [EReal.coe_mul, EReal.coe_mul]
  rw [hL, hR, ← EReal.coe_mul, EReal.coe_eq_coe_iff, Finset.sum_mul]
  refine Finset.sum_congr rfl fun e he => ?_
  rw [hr e n (Finset.mem_filter.mp he).2, mul_assoc]

/-- ONE LAYER of this graph: the first arrangement's walk of the edges is the second arrangement's. -/
theorem layer_graph {C : ℕ} (src dst : IVec ⟨1, ![1700000]⟩ 32) (P : (⟨2, ![100000, C]⟩ : Shape).Idx → EReal)
    (hP : AllReal P) :
    scaleRows (sumInto (nodeOf dst) (takeRows (nodeRow src) (scaleRows P (colOf (facVec dst))))) (colOf (facVec dst))
      = sumInto (nodeOf dst) (fun j => takeRows (nodeRow src) P j * edgeFac src dst (j 0)) :=
  layer (nodeRow src) (nodeRow dst) (nodeOf dst) (nodeRow_of_nodeOf dst) P (facVec dst) hP (facVec_real dst)

/-- Realness of one layer of the second arrangement. -/
theorem allReal_edgeLayer {C : ℕ} (src dst : IVec ⟨1, ![1700000]⟩ 32) (P : (⟨2, ![100000, C]⟩ : Shape).Idx → EReal)
    (b : (⟨1, ![C]⟩ : Shape).Idx → EReal) (hP : AllReal P) (hb : AllReal b) : AllReal (edgeLayer src dst P b) := by
  refine allReal_plus (allReal_sumInto _ fun j => ?_) (allReal_rows fun c => hb (ix1 c))
  obtain ⟨a, ha⟩ := hP (ix2 (nodeRow src (j 0)) (j 1))
  obtain ⟨u, hu⟩ := facVec_real dst (ix1 (nodeRow src (j 0)))
  obtain ⟨v, hv⟩ := facVec_real dst (ix1 (nodeRow dst (j 0)))
  exact ⟨a * (u * v), by
    show P (ix2 (nodeRow src (j 0)) (j 1)) * (facVec dst (ix1 (nodeRow src (j 0))) * facVec dst (ix1 (nodeRow dst (j 0)))) = _
    rw [ha, hu, hv, EReal.coe_mul, EReal.coe_mul]⟩

end Alg

/-- A vector as one row, laid along every row, is the vector laid along every row. -/
theorem rowsOf_rowOfVec {M C : ℕ} (b : (⟨1, ![C]⟩ : Shape).Idx → EReal) :
    rowsOf (M := M) (rowOfVec b) = rows (M := M) fun c => b (ix1 c) := rfl

/-- One layer of the first arrangement, from the unscaled product P on: it is the second arrangement's layer. -/
theorem nodeLayer_eq_edgeLayer {C : ℕ} (src dst : IVec ⟨1, ![1700000]⟩ 32) (P : (⟨2, ![100000, C]⟩ : Shape).Idx → EReal)
    (b : (⟨1, ![C]⟩ : Shape).Idx → EReal) (hP : AllReal P) :
    plus (scaleRows (sumInto (nodeOf dst) (takeRows (nodeRow src) (scaleRows P (colOf (facVec dst))))) (colOf (facVec dst)))
        (rowsOf (rowOfVec b))
      = edgeLayer src dst P b := by
  rw [Alg.layer_graph src dst P hP, rowsOf_rowOfVec]
  rfl

/-- THE TWO ARRANGEMENTS AGREE on real inputs. -/
theorem scaledNodes_eq_scaledEdges
    (x : (⟨2, ![100000, 128]⟩ : Shape).Idx → EReal) (src dst : IVec ⟨1, ![1700000]⟩ 32)
    (W1 : (⟨2, ![128, 64]⟩ : Shape).Idx → EReal) (b1 : (⟨1, ![64]⟩ : Shape).Idx → EReal)
    (W2 : (⟨2, ![64, 16]⟩ : Shape).Idx → EReal) (b2 : (⟨1, ![16]⟩ : Shape).Idx → EReal)
    (hx : AllReal x) (hW1 : AllReal W1) (hb1 : AllReal b1) (hW2 : AllReal W2) (hb2 : AllReal b2) :
    scaledNodes x src dst W1 b1 W2 b2 = scaledEdges x src dst W1 b1 W2 b2 := by
  have h1 : AllReal (mm x W1) := Alg.allReal_mm hx hW1
  have h2 : AllReal (mm (relu (edgeLayer src dst (mm x W1) b1)) W2) :=
    Alg.allReal_mm (Alg.allReal_relu (Alg.allReal_edgeLayer src dst _ b1 h1 hb1)) hW2
  unfold scaledNodes scaledEdges stage2 stage1 stage0
  rw [nodeLayer_eq_edgeLayer src dst (mm x W1) b1 h1, nodeLayer_eq_edgeLayer src dst _ b2 h2]

end Cert.Gcn

end
-- ==== Proof.Finite.lean ====
/-
  Finiteness of the inputs, read back from the precondition.

  For each of the five float arguments X the precondition computes the conjunction, over all entries, of
  |X i| < +∞, and then the conjunction of the five results. On the extended reals |x| = max x (-x), which is ⊤
  at both ⊥ and ⊤, so |x| < ⊤ holds exactly when x is a real number. A conjunction of bits that is 1 has every
  bit 1, and a reduction by `and` over all axes that is 1 met a 1 at every index.
-/
import proofs.«127769_j32942399160959_2_alg».proof.Pre_finite_inputs
import proofs.«127769_j32942399160959_2_alg».proof.Proof.Gen.Pre_finite_inputs
import proofs.«127769_j32942399160959_2_alg».proof.Proof.Spec
import Idealize.ShloMosaic.Lib.ReduceAll

noncomputable section

namespace Cert.Gcn.Finite

open Idealize.ShloMosaic Idealize.ShloMosaic.ValueIdx

/-- The rank-0 shape has exactly one index. -/
instance : Subsingleton (⟨0, ![]⟩ : Shape).Idx := ⟨fun _ _ => funext fun d => d.elim0⟩

/-- The f32 pattern of +∞ is the top of the extended reals. -/
theorem ofBits_inf_f32 : Ideal.ofBits .f32 0x7F800000#32 = (⊤ : EReal) := by
  simp [Ideal.ofBits, Ideal.ieee]

/-- An extended real whose absolute value compares below +∞ is a real number: |⊥| = |⊤| = ⊤. -/
theorem real_of_abs_lt (x : EReal)
    (h : FloatOps.cmpf (F := Ideal) (φ := .f32) .olt (FloatOps.hostAbsf (F := Ideal) (φ := .f32) x)
      (Ideal.ofBits .f32 0x7F800000#32) = 1#1) :
    ∃ r : ℝ, x = (r : EReal) := by
  rw [ofBits_inf_f32] at h
  change BitVec.ofBool (decide (max x (-x) < (⊤ : EReal))) = 1#1 at h
  induction x using EReal.rec with
  | bot => simp at h
  | coe r => exact ⟨r, rfl⟩
  | top => simp at h

/-- If the conjunction, over all entries of an array, of |X i| < +∞ is 1, then every entry of X is a real number. -/
theorem allReal_of_all {s : Shape} {axes : List (Fin s.rank)}
    (hb : (⟨0, ![]⟩ : Shape).BroadcastsInDim s (![] : Fin 0 → Fin s.rank))
    (hr : s.ReducesTo axes ⟨0, ![]⟩) (hu : 0 < (⟨0, ![]⟩ : Shape).numel)
    (X : FVec Ideal s .f32)
    (e : Host.reduce IntOp.andi
        (cmpf .olt (Host.absf X) (broadcastInDim s ![] hb (constant (⟨0, ![]⟩ : Shape) .f32 0x7F800000#32)))
        (constantI (⟨0, ![]⟩ : Shape) 1 1#1) hr hu ix0 = 1#1) :
    Cert.Gcn.AllReal X := by
  intro i
  have h := Host.reduce_andi_all _ _ hr hu ix0 e i
  rw [cmpf_apply, broadcastInDim_scalar_apply, constant_apply] at h
  exact real_of_abs_lt (X i) h

/-- The precondition, when it holds, makes every entry of the five float arguments a real number. -/
theorem real_of_pre [Cert.Pre_finite_inputs.Facts]
    (x0 : FVec Ideal Cert.Pre_finite_inputs.S100000x128 .f32) (x1 x2 : IVec Cert.Pre_finite_inputs.S1700000 32)
    (x3 : FVec Ideal Cert.Pre_finite_inputs.S128x64 .f32) (x4 : FVec Ideal Cert.Pre_finite_inputs.S64 .f32)
    (x5 : FVec Ideal Cert.Pre_finite_inputs.S64x16 .f32) (x6 : FVec Ideal Cert.Pre_finite_inputs.S16 .f32)
    (h : Cert.Pre_finite_inputs.fn (F := Ideal) x0 x1 x2 x3 x4 x5 x6 = fun _ => 1#1) :
    Cert.Gcn.AllReal x0 ∧ Cert.Gcn.AllReal x3 ∧ Cert.Gcn.AllReal x4 ∧ Cert.Gcn.AllReal x5 ∧ Cert.Gcn.AllReal x6 := by
  have h0 := congrFun h ix0
  dsimp only [Cert.Pre_finite_inputs.fn, Cert.Pre_finite_inputs.fn_part1] at h0
  -- the result is a conjunction of five bits, nested to the left
  obtain ⟨h0123, h4⟩ := IntOp.andi_eq_one.1 h0
  obtain ⟨h012, h3⟩ := IntOp.andi_eq_one.1 h0123
  obtain ⟨h01, h2⟩ := IntOp.andi_eq_one.1 h012
  obtain ⟨hA, hB⟩ := IntOp.andi_eq_one.1 h01
  exact ⟨allReal_of_all _ _ _ x0 hA, allReal_of_all _ _ _ x3 hB, allReal_of_all _ _ _ x4 h2,
    allReal_of_all _ _ _ x5 h3, allReal_of_all _ _ _ x6 h4⟩

end Cert.Gcn.Finite

end
-- ==== Proof.lean ====
/-
  The certificate's claim, assembled.

  Claimed: the kernel as printed, its idealization and the idealized reference each run to the end, nothing
  faulting, with their seven argument arrays as launched; the idealization of the kernel rewrote no operation, so
  it is the kernel's own text read over the extended reals; and the two idealized programs, started from memories
  that agree on the arguments, all of whose float entries are finite, end with the same result array.

  The first two frames are the generated frame certificates of the two kernel programs; the third is the
  reference's run, one host operation after the other, with what it says about the result dropped.

  The results agree because the idealized kernel's run ends with its result at the FIRST arrangement of the
  two-layer graph convolution, scaledNodes, of the launch arguments (every row of a product scaled by its node's
  factor before the edges are walked, and the sums scaled again afterwards), the reference's run ends at the
  SECOND arrangement, scaledEdges, of its own (every edge's row multiplied by the edge's factor while the edges are
  walked), and on arguments whose entries are real numbers the two arrangements are one array: a finite sum of
  reals distributes over a real factor. The precondition says exactly that the float arguments' entries are real.
-/
import proofs.«127769_j32942399160959_2_alg».proof.Defs
import proofs.«127769_j32942399160959_2_alg».proof.Proof.Gen.Kernel
import proofs.«127769_j32942399160959_2_alg».proof.Proof.Gen.Kernel.Skeleton
import proofs.«127769_j32942399160959_2_alg».proof.Proof.Gen.Kernel.Launch
import proofs.«127769_j32942399160959_2_alg».proof.Proof.Gen.Kernel.Points
import proofs.«127769_j32942399160959_2_alg».proof.Proof.Gen.Kernel.Frame
import proofs.«127769_j32942399160959_2_alg».proof.Proof.Gen.KernelIdeal
import proofs.«127769_j32942399160959_2_alg».proof.Proof.Gen.KernelIdeal.Skeleton
import proofs.«127769_j32942399160959_2_alg».proof.Proof.Gen.KernelIdeal.Launch
import proofs.«127769_j32942399160959_2_alg».proof.Proof.Gen.KernelIdeal.Points
import proofs.«127769_j32942399160959_2_alg».proof.Proof.Gen.KernelIdeal.Frame
import proofs.«127769_j32942399160959_2_alg».proof.Proof.Gen.ReferenceIdeal
import proofs.«127769_j32942399160959_2_alg».proof.Proof.Gen.Pre_finite_inputs
import proofs.«127769_j32942399160959_2_alg».proof.Proof.RefReadP
import proofs.«127769_j32942399160959_2_alg».proof.Proof.RefValue
import proofs.«127769_j32942399160959_2_alg».proof.Proof.RunValue
import proofs.«127769_j32942399160959_2_alg».proof.Proof.KernelValue
import proofs.«127769_j32942399160959_2_alg».proof.Proof.Algebra
import proofs.«127769_j32942399160959_2_alg».proof.Proof.Finite
import Idealize.ShloMosaic.Adequacy
import Idealize.ShloMosaic.Init

noncomputable section

/-! ## The claims -/

namespace Cert.Proof.GcnClaims

open Idealize.ShloMosaic Idealize.SL.Sem

/-- The kernel as printed runs and leaves its arguments as launched: the generated frame certificate. -/
theorem frame_p : Cert.frame_Kernel := fun m ρ _ => Cert.Kernel.Gen.frame m ρ

/-- So does its idealization: the generated frame certificate. -/
theorem frame_pi : Cert.frame_KernelIdeal := fun m ρ _ => Cert.KernelIdeal.Gen.frame m ρ

/-- The idealized reference runs and leaves its arguments as launched: its run, with the result's value dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation: nothing to restate. -/
theorem preserves : Cert.preserves_Kernel_KernelIdeal := trivial

/-- The reference's result is the second arrangement of the reference's launch arguments. -/
theorem ref_result (m' : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v59 m' c
      = Cert.Gcn.scaledEdges (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)) :=
  (Cert.ReferenceIdeal.ReadP.val_main_v59_eq m' c).trans (Cert.ReferenceIdeal.RefValue.ref_eq _ _ _ _ _ _ _)

/-- From memories that agree on the arguments, whose float entries are all real, both idealized programs end with
    the first arrangement of the kernel's launch arguments: the kernel's run ends there, the reference's run ends at
    the second arrangement of the same arrays, and on real entries the two arrangements agree. -/
theorem algebraic : Cert.algebraic_KernelIdeal_ReferenceIdeal := by
  intro m ρ m' ρ' hpre hagree
  refine ⟨fun c => Cert.Gcn.scaledNodes (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.KernelValue.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6⟩ := hagree c
    obtain ⟨h0, h3, h4, h5, h6⟩ := Cert.Gcn.Finite.real_of_pre _ _ _ _ _ _ _ (hpre c)
    rw [ref_result m' c, e0, e1, e2, e3, e4, e5, e6]
    exact (Cert.Gcn.scaledNodes_eq_scaledEdges _ _ _ _ _ _ _ h0 h3 h4 h5 h6).symm

end Cert.Proof.GcnClaims

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  GcnClaims.frame_p, GcnClaims.frame_pi, GcnClaims.frame_ri, GcnClaims.preserves, GcnClaims.algebraic⟩

end Cert.Proof

end
